-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S4x64x64 : Shape := ⟨3, ![4, 64, 64]⟩
abbrev S4x64 : Shape := ⟨2, ![4, 64]⟩
abbrev S64x3 : Shape := ⟨2, ![64, 3]⟩
abbrev S3 : Shape := ⟨1, ![3]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg5 : FVec F S3 .f32) (main_v13 : IVec S_ 1) (main_v16 : IVec S64x3 1) : IVec S_ 1 :=
  let main_c_5 : IVec S_ 1 := constantI S_ 1 1#1
  let main_v17 : IVec S_ 1 := (fun x v => Host.reduce IntOp.andi x v reducesTo_S64x3_S_d0_1 h_S_) main_v16 main_c_5
  let main_v18 : IVec S_ 1 := andi main_v13 main_v17
  let main_v19 : FVec F S3 .f32 := Host.absf main_arg5
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S4x64x64 .f32) (main_arg3 : FVec F S4x64 .f32) (main_arg4 : FVec F S64x3 .f32) (main_arg5 : FVec F S3 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S4x64x64 .f32 := Host.absf main_arg2
  let main_cst_0 : FVec F S_ .f32 := constant S_ .f32 0x7F800000#32
  let main_v5 : FVec F S4x64x64 .f32 := broadcastInDim S4x64x64 ![] bcast_S_S4x64x64 main_cst_0
  let main_v6 : IVec S4x64x64 1 := cmpf .olt main_v4 main_v5
  let main_c_1 : IVec S_ 1 := constantI S_ 1 1#1
  let main_v7 : IVec S_ 1 := (fun x v => Host.reduce IntOp.andi x v reducesTo_S4x64x64_S_d0_1_2 h_S_) main_v6 main_c_1
  let main_v8 : IVec S_ 1 := andi main_v3 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S64x3 .f32 := Host.absf main_arg4
  let main_cst_4 : FVec F S_ .f32 := constant S_ .f32 0x7F800000#32
  let main_v15 : FVec F S64x3 .f32 := broadcastInDim S64x3 ![] bcast_S_S64x3 main_cst_4
  let main_v16 : IVec S64x3 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S4x64x64 : Shape := ⟨3, ![4, 64, 64]⟩
abbrev S4x64 : Shape := ⟨2, ![4, 64]⟩
abbrev S64x3 : Shape := ⟨2, ![64, 3]⟩
abbrev S3 : Shape := ⟨1, ![3]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64x64 : Shape := ⟨3, ![1, 64, 64]⟩
abbrev S64x64 : Shape := ⟨2, ![64, 64]⟩
abbrev S10000x64 : Shape := ⟨2, ![10000, 64]⟩
abbrev S1700000x64 : Shape := ⟨2, ![1700000, 64]⟩
abbrev S1x64 : Shape := ⟨2, ![1, 64]⟩
abbrev S64 : Shape := ⟨1, ![64]⟩
abbrev S100000x3 : Shape := ⟨2, ![100000, 3]⟩
abbrev S10000x3 : Shape := ⟨2, ![10000, 3]⟩
abbrev S1x3 : Shape := ⟨2, ![1, 3]⟩

abbrev nBuf : Space → Nat
  | .hbm => 138
  | .vmem => 54
  | .smem => 0
  | _ => 0

abbrev hbmTy0_0 (i : Nat) : BufTy := match i % 128 with
  | 0 => ⟨S100000x64, .f32⟩
  | 1 => ⟨S2x1600000, .i32⟩
  | 2 => ⟨S4x64x64, .f32⟩
  | 3 => ⟨S4x64, .f32⟩
  | 4 => ⟨S64x3, .f32⟩
  | 5 => ⟨S3, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S1x64x64, .f32⟩
  | 50 => ⟨S64x64, .f32⟩
  | 51 => ⟨S100000x64, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S64, .f32⟩
  | 70 => ⟨S100000x64, .f32⟩
  | 71 => ⟨S1x64x64, .f32⟩
  | 72 => ⟨S64x64, .f32⟩
  | 73 => ⟨S100000x64, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000x64, .f32⟩
  | 83 => ⟨S1700000x1, .f32⟩
  | 84 => ⟨S1700000x64, .f32⟩
  | 85 => ⟨S1700000x64, .f32⟩
  | 86 => ⟨S_, .f32⟩
  | 87 => ⟨S100000x64, .f32⟩
  | 88 => ⟨S1700000x1, .i32⟩
  | 89 => ⟨S100000x64, .f32⟩
  | 90 => ⟨S1x64, .f32⟩
  | 91 => ⟨S64, .f32⟩
  | 92 => ⟨S100000x64, .f32⟩
  | 93 => ⟨S1x64x64, .f32⟩
  | 94 => ⟨S64x64, .f32⟩
  | 95 => ⟨S100000x64, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000x64, .f32⟩
  | 105 => ⟨S1700000x1, .f32⟩
  | 106 => ⟨S1700000x64, .f32⟩
  | 107 => ⟨S1700000x64, .f32⟩
  | 108 => ⟨S_, .f32⟩
  | 109 => ⟨S100000x64, .f32⟩
  | 110 => ⟨S1700000x1, .i32⟩
  | 111 => ⟨S100000x64, .f32⟩
  | 112 => ⟨S1x64, .f32⟩
  | 113 => ⟨S64, .f32⟩
  | 114 => ⟨S100000x64, .f32⟩
  | 115 => ⟨S1x64x64, .f32⟩
  | 116 => ⟨S64x64, .f32⟩
  | 117 => ⟨S100000x64, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000x64, .f32⟩
  | 127 => ⟨S1700000x1, .f32⟩
  | _ => ⟨S100000x64, .f32⟩

abbrev hbmTy0_1 (i : Nat) : BufTy := match i % 128 with
  | 0 => ⟨S1700000x64, .f32⟩
  | 1 => ⟨S1700000x64, .f32⟩
  | 2 => ⟨S_, .f32⟩
  | 3 => ⟨S100000x64, .f32⟩
  | 4 => ⟨S1700000x1, .i32⟩
  | 5 => ⟨S100000x64, .f32⟩
  | 6 => ⟨S1x64, .f32⟩
  | 7 => ⟨S64, .f32⟩
  | 8 => ⟨S100000x64, .f32⟩
  | 9 => ⟨S100000x3, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S64x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S64x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S10000x64, .f32⟩
  | .local _ .vmem, ⟨50, _⟩ => ⟨S64x3, .f32⟩
  | .local _ .vmem, ⟨51, _⟩ => ⟨S3, .f32⟩
  | .local _ .vmem, ⟨52, _⟩ => ⟨S10000x3, .f32⟩
  | .local _ .vmem, ⟨53, _⟩ => ⟨S10000x3, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_13 : Ref sig .tc := ⟨.hbm, 96, rfl⟩
abbrev main_v73 : Ref sig .tc := ⟨.hbm, 97, rfl⟩
abbrev main_v74 : Ref sig .tc := ⟨.hbm, 98, rfl⟩
abbrev main_c_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_15 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_c_16 : Ref sig .tc := ⟨.hbm, 118, rfl⟩
abbrev main_v92 : Ref sig .tc := ⟨.hbm, 119, rfl⟩
abbrev main_v93 : Ref sig .tc := ⟨.hbm, 120, rfl⟩
abbrev main_c_17 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_18 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg1_1 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg3_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem1_1 : DmaSem sig := 44
abbrev cc7_sem2_0 : DmaSem sig := 45
abbrev cc7_sem3_0 : DmaSem sig := 46
abbrev cc7_sem3_1 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem3_1 : DmaSem sig := 53

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x3 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S3 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S10000x3 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S4x64x64_S1x64x64_0_0_0 : S4x64x64.Slices ![0, 0, 0] S1x64x64
  shapeCasts_S1x64x64_S64x64 : S1x64x64.ShapeCasts S64x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  slices_S4x64_S1x64_0_0 : S4x64.Slices ![0, 0] S1x64
  shapeCasts_S1x64_S64 : S1x64.ShapeCasts S64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S10000x64 : S1x64.Broadcasts S10000x64
  shapeCasts_S10000x64_S10000x64 : S10000x64.ShapeCasts S10000x64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  inb_S64x3_S64x3_0_0 : ∀ a, (![0, 0] : Fin 2 → Nat) a + S64x3.size a ≤ S64x3.size a
  h_S64x3 : 0 < S64x3.numel
  inb_S3_S3_0 : ∀ a, (![0] : Fin 1 → Nat) a + S3.size a ≤ S3.size a
  h_S3 : 0 < S3.numel
  shapeCasts_S3_S1x3 : S3.ShapeCasts S1x3
  broadcasts_S1x3_S10000x3 : S1x3.Broadcasts S10000x3
  inb_S10000x3_S10000x3_0_0 : ∀ a, (![0, 0] : Fin 2 → Nat) a + S10000x3.size a ≤ S10000x3.size a
  h_S10000x3 : 0 < S10000x3.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x3_S10000x3_1_0_0_1_n_n_wf : DotDims.WF S10000x64 S64x3 S10000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64.size a ≤ S64.size a
  hwx5_2 : ∀ i : grid5.Coords, EltTy.bits .f32 = 32 ∨ (Rect.block (s := S64) S64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S100000x64.size a
  hwx5_3 : ∀ i : grid5.Coords, EltTy.bits .f32 = 32 ∨ (Rect.block (s := S100000x64) S10000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x64.size a ≤ S100000x64.size a
  hwx7_1 : ∀ i : grid7.Coords, EltTy.bits .f32 = 32 ∨ (Rect.block (s := S100000x64) S10000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64.size a ≤ S64.size a
  hwx7_2 : ∀ i : grid7.Coords, EltTy.bits .f32 = 32 ∨ (Rect.block (s := S64) S64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x64.size a ≤ S100000x64.size a
  hwx7_3 : ∀ i : grid7.Coords, EltTy.bits .f32 = 32 ∨ (Rect.block (s := S100000x64) S10000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x3.size a ≤ S64x3.size a
  hwx8_1 : ∀ i : grid8.Coords, EltTy.bits .f32 = 32 ∨ (Rect.block (s := S64x3) S64x3.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S3.size a ≤ S3.size a
  hwx8_2 : ∀ i : grid8.Coords, EltTy.bits .f32 = 32 ∨ (Rect.block (s := S3) S3.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S10000x3.size a ≤ S100000x3.size a
  hwx8_3 : ∀ i : grid8.Coords, EltTy.bits .f32 = 32 ∨ (Rect.block (s := S100000x3) S10000x3.size (cc8_transform_3 i) (hinb8_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x3_S10000x3_1_0_0_1_n_n : DotDims S10000x64 S64x3 S10000x3 where
  lhsContracting := [1]
  rhsContracting := [0]
  lhsNonContracting := [0]
  rhsNonContracting := [1]
  lhsBatch := []
  rhsBatch := []
  wf := dot_S10000x64_S64x3_S10000x3_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v50) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v50) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v68) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v69) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v69) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v85) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v87) S64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v88) S10000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v88) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v90) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v91) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v88) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v104) S10000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v106) S64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v107) S10000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v107) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg4) S64x3.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg5) S3.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v108) S10000x3.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S4x64x64 : Shape := ⟨3, ![4, 64, 64]⟩
abbrev S4x64 : Shape := ⟨2, ![4, 64]⟩
abbrev S64x3 : Shape := ⟨2, ![64, 3]⟩
abbrev S3 : Shape := ⟨1, ![3]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1700000x64 : Shape := ⟨2, ![1700000, 64]⟩
abbrev S100000x3 : Shape := ⟨2, ![100000, 3]⟩
abbrev S1x3 : Shape := ⟨2, ![1, 3]⟩

abbrev nBuf : Space → Nat
  | .hbm => 164
  | .vmem => 0
  | .smem => 0
  | _ => 0

abbrev hbmTy0_0 (i : Nat) : BufTy := match i % 128 with
  | 0 => ⟨S100000x64, .f32⟩
  | 1 => ⟨S2x1600000, .i32⟩
  | 2 => ⟨S4x64x64, .f32⟩
  | 3 => ⟨S4x64, .f32⟩
  | 4 => ⟨S64x3, .f32⟩
  | 5 => ⟨S3, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S1x64x64, .f32⟩
  | 50 => ⟨S64x64, .f32⟩
  | 51 => ⟨S1x64, .f32⟩
  | 52 => ⟨S64, .f32⟩
  | 53 => ⟨S100000x64, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x64, .f32⟩
  | 63 => ⟨S1700000x1, .f32⟩
  | 64 => ⟨S1700000x64, .f32⟩
  | 65 => ⟨S1700000x64, .f32⟩
  | 66 => ⟨S_, .f32⟩
  | 67 => ⟨S100000x64, .f32⟩
  | 68 => ⟨S1700000x1, .i32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S1x64x64, .f32⟩
  | 77 => ⟨S64x64, .f32⟩
  | 78 => ⟨S1x64, .f32⟩
  | 79 => ⟨S64, .f32⟩
  | 80 => ⟨S100000x64, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000x64, .f32⟩
  | 90 => ⟨S1700000x1, .f32⟩
  | 91 => ⟨S1700000x64, .f32⟩
  | 92 => ⟨S1700000x64, .f32⟩
  | 93 => ⟨S_, .f32⟩
  | 94 => ⟨S100000x64, .f32⟩
  | 95 => ⟨S1700000x1, .i32⟩
  | 96 => ⟨S100000x64, .f32⟩
  | 97 => ⟨S1x64, .f32⟩
  | 98 => ⟨S100000x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S1x64x64, .f32⟩
  | 105 => ⟨S64x64, .f32⟩
  | 106 => ⟨S1x64, .f32⟩
  | 107 => ⟨S64, .f32⟩
  | 108 => ⟨S100000x64, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x64, .f32⟩
  | 118 => ⟨S1700000x1, .f32⟩
  | 119 => ⟨S1700000x64, .f32⟩
  | 120 => ⟨S1700000x64, .f32⟩
  | 121 => ⟨S_, .f32⟩
  | 122 => ⟨S100000x64, .f32⟩
  | 123 => ⟨S1700000x1, .i32⟩
  | 124 => ⟨S100000x64, .f32⟩
  | 125 => ⟨S1x64, .f32⟩
  | 126 => ⟨S100000x64, .f32⟩
  | 127 => ⟨S100000x64, .f32⟩
  | _ => ⟨S100000x64, .f32⟩

abbrev hbmTy0_1 (i : Nat) : BufTy := match i % 128 with
  | 0 => ⟨S100000x64, .f32⟩
  | 1 => ⟨S_, .f32⟩
  | 2 => ⟨S100000x64, .f32⟩
  | 3 => ⟨S100000x64, .f32⟩
  | 4 => ⟨S1x64x64, .f32⟩
  | 5 => ⟨S64x64, .f32⟩
  | 6 => ⟨S1x64, .f32⟩
  | 7 => ⟨S64, .f32⟩
  | 8 => ⟨S100000x64, .f32⟩
  | 9 => ⟨S_, .i32⟩
  | 10 => ⟨S1700000, .i32⟩
  | 11 => ⟨S1700000, .i1⟩
  | 12 => ⟨S_, .i32⟩
  | 13 => ⟨S1700000, .i32⟩
  | 14 => ⟨S1700000, .i32⟩
  | 15 => ⟨S1700000, .i32⟩
  | 16 => ⟨S1700000x1, .i32⟩
  | 17 => ⟨S1700000x64, .f32⟩
  | 18 => ⟨S1700000x1, .f32⟩
  | 19 => ⟨S1700000x64, .f32⟩
  | 20 => ⟨S1700000x64, .f32⟩
  | 21 => ⟨S_, .f32⟩
  | 22 => ⟨S100000x64, .f32⟩
  | 23 => ⟨S1700000x1, .i32⟩
  | 24 => ⟨S100000x64, .f32⟩
  | 25 => ⟨S1x64, .f32⟩
  | 26 => ⟨S100000x64, .f32⟩
  | 27 => ⟨S100000x64, .f32⟩
  | 28 => ⟨S100000x64, .f32⟩
  | 29 => ⟨S_, .f32⟩
  | 30 => ⟨S100000x64, .f32⟩
  | 31 => ⟨S100000x64, .f32⟩
  | 32 => ⟨S100000x3, .f32⟩
  | 33 => ⟨S1x3, .f32⟩
  | 34 => ⟨S100000x3, .f32⟩
  | 35 => ⟨S100000x3, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call1_cst : Ref sig .tc := ⟨.hbm, 73, rfl⟩
abbrev main_call1_v0 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_10 : Ref sig .tc := ⟨.hbm, 81, rfl⟩
abbrev main_v59 : Ref sig .tc := ⟨.hbm, 82, rfl⟩
abbrev main_v60 : Ref sig .tc := ⟨.hbm, 83, rfl⟩
abbrev main_c_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_12 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_call2_cst : Ref sig .tc := ⟨.hbm, 101, rfl⟩
abbrev main_call2_v0 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_13 : Ref sig .tc := ⟨.hbm, 109, rfl⟩
abbrev main_v82 : Ref sig .tc := ⟨.hbm, 110, rfl⟩
abbrev main_v83 : Ref sig .tc := ⟨.hbm, 111, rfl⟩
abbrev main_c_14 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_15 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_call3_cst : Ref sig .tc := ⟨.hbm, 129, rfl⟩
abbrev main_call3_v0 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_c_16 : Ref sig .tc := ⟨.hbm, 137, rfl⟩
abbrev main_v105 : Ref sig .tc := ⟨.hbm, 138, rfl⟩
abbrev main_v106 : Ref sig .tc := ⟨.hbm, 139, rfl⟩
abbrev main_c_17 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_18 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_call4_cst : Ref sig .tc := ⟨.hbm, 157, rfl⟩
abbrev main_call4_v0 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x3_S100000x3_1_0_0_1_n_n_wf : DotDims.WF S100000x64 S64x3 S100000x3 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x3_S100000x3_1_0_0_1_n_n : DotDims S100000x64 S64x3 S100000x3 where
  lhsContracting := [1]
  rhsContracting := [0]
  lhsNonContracting := [0]
  rhsNonContracting := [1]
  lhsBatch := []
  rhsBatch := []
  wf := dot_S100000x64_S64x3_S100000x3_1_0_0_1_n_n_wf

class Facts : Prop extends Facts₀ where

variable [Facts]
-- ==== Proof.KernelRun.lean ====
/-
  The idealized kernel's run with its result array named.

  The program is nine pipelined launches among stretches of host operations. Its generated frame follows the buffer
  contents from boundary to boundary: a host stretch maps the contents through its operations, a launch leaves each of
  its arrays at what its write-backs fold to and every other buffer as it was. The last boundary's contents are what
  the final state holds at every unscoped buffer; read there at the result array as well as at the six arguments,
  they give the run's value statement.
-/
import proofs.«117175_j71751723647605_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from `m` terminates without a fault; the result array ends at the last boundary's
    contents, and the six argument arrays end as launched. -/
theorem run : θ_run defs (onTc (τ := τ) (main (F := F))) ⟨m, fun _ => 0, ρ⟩ (fun r => ∀ c : Dev nD,
      r.2.mem ((c.tc : Thread nD τ).loc main_v108) = W19 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v108 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c)⟩)

end Cert.KernelIdeal.Whole

end
-- ==== Proof.LibDotIndex.lean ====
/-
  The contraction index of a rows-by-columns product, made an ordinary column index.

  For operands of shapes [A, K] and [K, B] whose dimension numbers say "no batch axes, the left operand's axis 0 and
  the right operand's axis 1 are kept, axis 1 of the left is contracted against axis 0 of the right", the contraction's
  own index set has one axis of extent K. Summing over it is summing over `Fin K`: at the result entry (p, q) and the
  contraction position k the left operand is read at (p, k) and the right operand at (k, q).
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- The left operand is read at row p of the result entry and at the contraction position. -/
theorem lhs_at (hlb : d.lhsBatch = []) (hln : d.lhsNonContracting = [0]) (hlc : d.lhsContracting = [1])
    (hr : d.contr.rank = 1) (hs : d.contr.size ⟨0, by omega⟩ = K) (p : Fin A) (q : Fin B) (k : Fin K) :
    d.lhsIdx (ix2 p q) ((contrEquiv1 d K hr hs).symm k) = ix2 p k := by
  funext a
  apply Fin.ext
  match a with
  | ⟨0, _⟩ =>
    show (d.lhsIdx (ix2 p q) ((contrEquiv1 d K hr hs).symm k) 0).val = p.val
    have key : ∀ (n : Nat) (h : n < (⟨2, ![A, B]⟩ : Shape).rank), n = 0 →
        ((ix2 p q : (⟨2, ![A, B]⟩ : Shape).Idx) ⟨n, h⟩).val = p.val := by
      intro n h e; subst e; rfl
    unfold DotDims.lhsIdx
    rw [dif_neg (by simp [hlb]), dif_pos (by simp [hln])]
    simp only [Fin.val_cast]
    exact key _ _ (by simp [hlb, hln])
  | ⟨1, _⟩ =>
    show (d.lhsIdx (ix2 p q) ((contrEquiv1 d K hr hs).symm k) 1).val = k.val
    rw [d.lhsIdx_val_of_single hlc]
    exact contrEquiv1_symm_val d K hr hs k

/-- The right operand is read at the contraction position and at column q of the result entry. -/
theorem rhs_at (hlb : d.lhsBatch = []) (hln : d.lhsNonContracting = [0])
    (hrb : d.rhsBatch = []) (hrn : d.rhsNonContracting = [1]) (hrc : d.rhsContracting = [0])
    (hr : d.contr.rank = 1) (hs : d.contr.size ⟨0, by omega⟩ = K) (p : Fin A) (q : Fin B) (k : Fin K) :
    d.rhsIdx (ix2 p q) ((contrEquiv1 d K hr hs).symm k) = ix2 k q := by
  funext a
  apply Fin.ext
  match a with
  | ⟨0, _⟩ =>
    show (d.rhsIdx (ix2 p q) ((contrEquiv1 d K hr hs).symm k) 0).val = k.val
    rw [d.rhsIdx_val_of_single hrc]
    exact contrEquiv1_symm_val d K hr hs k
  | ⟨1, _⟩ =>
    show (d.rhsIdx (ix2 p q) ((contrEquiv1 d K hr hs).symm k) 1).val = q.val
    have key : ∀ (n : Nat) (h : n < (⟨2, ![A, B]⟩ : Shape).rank), n = 1 →
        ((ix2 p q : (⟨2, ![A, B]⟩ : Shape).Idx) ⟨n, h⟩).val = q.val := by
      intro n h e; subst e; rfl
    unfold DotDims.rhsIdx
    rw [dif_neg (by simp [hrb]), dif_pos (by simp [hrn])]
    simp only [Fin.val_cast]
    exact key _ _ (by simp [hlb, hln, hrn])

/-- The sum over the contraction's index set is the sum over the columns of the left operand. -/
theorem sum_eq {φ₁ φ₂ : FTy}
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    (∑ k : d.contr.Idx, (x (d.lhsIdx (ix2 p q) k) : EReal) * (y (d.rhsIdx (ix2 p q) k) : EReal))
      = ∑ k : Fin K, (x (ix2 p k) : EReal) * (y (ix2 k q) : EReal) := by
  rw [← Equiv.sum_comp (contrEquiv1 d K hr hs).symm]
  refine Finset.sum_congr rfl fun k _ => ?_
  rw [lhs_at d hlb hln hlc hr hs p q k, rhs_at d hlb hln hrb hrn hrc hr hs p q k]

end Cert.PlainDot
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«117175_j71751723647605_1_alg».proof.Proof.LibDotIndex

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.LibBiasRow.lean ====
/-
  A bias vector as a row, read at an index: a vector `[b]` placed as the one row of `[1, b]` reads its entry of the
  column; a row `[1, b]` repeated down `a` rows reads, at `(p, q)`, its entry `q`. (A `broadcast_in_dim` reads the
  operand's unit axes at coordinate zero and its other axes at the result's coordinate on the axis they are sent to.)
-/
import Idealize.ShloMosaic.Lib.ValueIdx
import Idealize.ShloMosaic.Lib.Pipeline.Value

noncomputable section

namespace Cert.BiasRow

open Idealize.ShloMosaic Idealize.ShloMosaic.ValueIdx

variable {α : Type}

/-- A vector `[b]` placed as the row of `[1, b]` reads, at `(u, q)`, its entry `q`. -/
theorem row_apply {b : ℕ} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A row `[1, b]` repeated down `a` rows reads, at `(p, q)`, the row's entry `q`. -/
theorem down_apply {a b : ℕ} (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

end Cert.BiasRow

end
-- ==== Proof.LibDenseLayer.lean ====
/-
  A dense layer read entry by entry at the exact values, in the form a kernel tile computes it and in the form a host
  program computes it.

  Over the extended reals a float is an exact number and a change of float format is the identity, so:

    an affine layer   x · W + b   has, at row p and column q, the value  (∑ k, x (p, k) · W (k, q)) + b q,  whether the
      product is a matrix unit's product into a zero accumulator with the bias vector recast as a one-row matrix and
      repeated down the rows, or the host's general product with the bias placed by two broadcasts;

    a leaky rectifier   z ↦ if z ≥ 0 then z else slope · z   is decided entry by entry by the ordered comparison
      against the zero word, whether the zero and the slope are splat scalars (a tile) or rank-0 arrays broadcast over the
      shape (the host, where the slope arrives through a conversion to its own type, the identity);

    the logistic   z ↦ 1 / (1 + exp (−z))   is one function whether it is one operation (a tile) or the host's
      negate, exponential, add-one, divide-into-one spelt out, the word of 1 being the number 1.

  Every statement is for any shape extents, any dimension record with the rows-by-columns numbers, any operand formats.
-/
import proofs.«117175_j71751723647605_1_alg».proof.Proof.LibDotSums
import proofs.«117175_j71751723647605_1_alg».proof.Proof.LibBiasRow
import Idealize.ShloMosaic.Lib.ValueLayout

open scoped BigOperators

noncomputable section

namespace Cert.DenseLayer

open Idealize.ShloMosaic Idealize.ShloMosaic.ValueIdx

/-- Entry `q` of one row `h` sent through an affine layer: the row against column `q` of the weights, plus the
    bias's entry `q`. -/
def affine {K B : ℕ} (h : Fin K → EReal) (W : Fin K → Fin B → EReal) (b : Fin B → EReal) (q : Fin B) : EReal :=
  (∑ k : Fin K, h k * W k q) + b q

/-- The leaky rectifier with the slope of word `sl`: `z` where the ordered comparison `z ≥ 0` holds, the slope times
    `z` elsewhere. -/
def leaky (sl : BitVec 32) (z : EReal) : EReal :=
  Scalar.select (FloatOps.cmpf (F := Ideal) (φ := .f32) .oge z (Ideal.ofBits .f32 0x00000000#32)) z
    (Ideal.ofBits .f32 sl * z)

/-- The f32 word of one is the number one. -/
theorem one_word : Ideal.ofBits .f32 0x3F800000#32 = 1 := by
  simp [Ideal.ofBits, Ideal.ieee, -EReal.coe_mul]; norm_num

/-- A rank-0 array broadcast over any shape reads its one entry everywhere. (The map from the operand's axes to the
    result's has no axis to send; it is kept a variable so that any spelling of the empty map is matched.) -/
theorem scalar_apply {α : Type} {t : Shape} (dims : Fin (⟨0, ![]⟩ : Shape).rank → Fin t.rank)
    (x : (⟨0, ![]⟩ : Shape).Idx → α) (h : (⟨0, ![]⟩ : Shape).BroadcastsInDim t dims) (j : t.Idx) :
    broadcastInDim t dims h x j = x ix0 :=
  broadcastInDim_apply dims h x j ix0 (fun a => a.elim0)

section Affine

variable {A K B : ℕ} {φ₁ φ₂ : FTy} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])
  (hr : d.contr.rank = 1) (hs : d.contr.size ⟨0, by omega⟩ = K) (prec : Option ContractPrecision)
  (x : FVec Ideal ⟨2, ![A, K]⟩ φ₁) (w : FVec Ideal ⟨2, ![K, B]⟩ φ₂) (c : FVec Ideal ⟨1, ![B]⟩ .f32)

include hlb hln hlc hrb hrn hrc hr hs

/-- The tile form: the matrix unit's product into the zero tile, plus the bias recast `[B] → [1, B]` and repeated
    down the rows. -/
theorem tile_affine_apply (h1 : (⟨1, ![B]⟩ : Shape).ShapeCasts ⟨2, ![1, B]⟩)
    (h2 : (⟨2, ![1, B]⟩ : Shape).Broadcasts ⟨2, ![A, B]⟩) (p : Fin A) (q : Fin B) :
    addf (matmul d prec x w (constant ⟨2, ![A, B]⟩ .f32 0x00000000#32))
        (broadcastTo ⟨2, ![A, B]⟩ (shapeCast ⟨2, ![1, B]⟩ c h1) h2) (ix2 p q)
      = affine (fun k => x (ix2 p k)) (fun k q => w (ix2 k q)) (fun q => c (ix1 q)) q := by
  show FloatOps.matmul d prec x w (constant ⟨2, ![A, B]⟩ .f32 0x00000000#32) (ix2 p q)
      + broadcastTo ⟨2, ![A, B]⟩ (shapeCast ⟨2, ![1, B]⟩ c h1) h2 (ix2 p q) = _
  rw [Cert.DotSums.matmul_zero_ix2 d prec hlb hln hlc hrb hrn hrc hr hs x w p q, broadcastTo_1b_ab_apply,
    shapeCast_a_1a_apply]
  rfl

/-- The host form: the general product, plus the bias placed as the row of `[1, B]` and repeated down the rows by two
    broadcasts. -/
theorem host_affine_apply (h1 : (⟨1, ![B]⟩ : Shape).BroadcastsInDim ⟨2, ![1, B]⟩ ![1])
    (h2 : (⟨2, ![1, B]⟩ : Shape).BroadcastsInDim ⟨2, ![A, B]⟩ ![0, 1]) (p : Fin A) (q : Fin B) :
    addf (Host.dotGeneral d prec x w)
        (broadcastInDim ⟨2, ![A, B]⟩ ![0, 1] h2 (broadcastInDim ⟨2, ![1, B]⟩ ![1] h1 c)) (ix2 p q)
      = affine (fun k => x (ix2 p k)) (fun k q => w (ix2 k q)) (fun q => c (ix1 q)) q := by
  show FloatOps.dotGeneral d prec .single x w (ix2 p q)
      + broadcastInDim ⟨2, ![A, B]⟩ ![0, 1] h2 (broadcastInDim ⟨2, ![1, B]⟩ ![1] h1 c) (ix2 p q) = _
  rw [Cert.DotSums.dotGeneral_ix2 d prec .single hlb hln hlc hrb hrn hrc hr hs x w p q, Cert.BiasRow.down_apply,
    Cert.BiasRow.row_apply]
  rfl

/-- The last layer of a tile, with no bias: the matrix unit's product into the zero tile is the plain sum. -/
theorem tile_product_apply (p : Fin A) (q : Fin B) :
    matmul d prec x w (constant ⟨2, ![A, B]⟩ .f32 0x00000000#32) (ix2 p q) = ∑ k : Fin K, x (ix2 p k) * w (ix2 k q) :=
  Cert.DotSums.matmul_zero_ix2 d prec hlb hln hlc hrb hrn hrc hr hs x w p q

/-- The host's product with no bias likewise. -/
theorem host_product_apply (p : Fin A) (q : Fin B) :
    Host.dotGeneral d prec x w (ix2 p q) = ∑ k : Fin K, x (ix2 p k) * w (ix2 k q) :=
  Cert.DotSums.dotGeneral_ix2 d prec .single hlb hln hlc hrb hrn hrc hr hs x w p q

end Affine

/-- The tile form of the leaky rectifier: the zero and the slope are scalars splat over the tile. -/
theorem tile_leaky_apply {t : Shape} (sl : BitVec 32) (v : FVec Ideal t .f32) (j : t.Idx) :
    select (cmpf .oge v (broadcast t (Scalar.ofBits (F := Ideal) .f32 0x00000000#32))) v
      (mulf (broadcast t (Scalar.ofBits (F := Ideal) .f32 sl)) v) j = leaky sl (v j) := rfl

/-- The host form of the leaky rectifier: the zero and the slope are rank-0 arrays broadcast over the shape, the slope
    first converted to its own type. -/
theorem host_leaky_apply {t : Shape} (sl : BitVec 32) (v : FVec Ideal t .f32)
    (dims : Fin (⟨0, ![]⟩ : Shape).rank → Fin t.rank) (h0 : (⟨0, ![]⟩ : Shape).BroadcastsInDim t dims) (j : t.Idx) :
    select (cmpf .oge v (broadcastInDim t dims h0 (constant (F := Ideal) ⟨0, ![]⟩ .f32 0x00000000#32))) v
      (mulf (broadcastInDim t dims h0 (id (constant (F := Ideal) ⟨0, ![]⟩ .f32 sl))) v) j = leaky sl (v j) := by
  show Scalar.select (FloatOps.cmpf (F := Ideal) (φ := .f32) .oge (v j)
      (broadcastInDim t dims h0 (constant (F := Ideal) ⟨0, ![]⟩ .f32 0x00000000#32) j)) (v j)
      (broadcastInDim t dims h0 (id (constant (F := Ideal) ⟨0, ![]⟩ .f32 sl)) j * v j) = _
  rw [scalar_apply, scalar_apply]
  rfl

/-- The tile's logistic is the logistic of the entry. -/
theorem tile_logistic_apply {t : Shape} (v : FVec Ideal t .f32) (j : t.Idx) :
    logistic v j = Ideal.logistic (v j) := rfl

/-- The host's logistic spelt out, `1 / (1 + exp (−z))` with both ones rank-0 arrays broadcast over the shape, is the
    logistic of the entry. -/
theorem host_logistic_apply {t : Shape} (v : FVec Ideal t .f32) (dims : Fin (⟨0, ![]⟩ : Shape).rank → Fin t.rank)
    (h0 : (⟨0, ![]⟩ : Shape).BroadcastsInDim t dims) (j : t.Idx) :
    Host.divf (broadcastInDim t dims h0 (constant (F := Ideal) ⟨0, ![]⟩ .f32 0x3F800000#32))
      (addf (broadcastInDim t dims h0 (constant (F := Ideal) ⟨0, ![]⟩ .f32 0x3F800000#32)) (Host.exp (Host.negf v))) j
      = Ideal.logistic (v j) := by
  show Ideal.div (broadcastInDim t dims h0 (constant (F := Ideal) ⟨0, ![]⟩ .f32 0x3F800000#32) j)
      (broadcastInDim t dims h0 (constant (F := Ideal) ⟨0, ![]⟩ .f32 0x3F800000#32) j + Ideal.exp (-(v j))) = _
  rw [scalar_apply]
  show Ideal.div (Ideal.ofBits .f32 0x3F800000#32) (Ideal.ofBits .f32 0x3F800000#32 + Ideal.exp (-(v j))) = _
  rw [one_word]
  rfl

end Cert.DenseLayer

end
-- ==== Proof.LibGcnPieces.lean ====
/-
  The dense pieces of a stacked graph-convolution network, entry by entry over the extended reals.

  Over the extended reals a float is an exact number and a change of float format is the identity. Three pieces:

    the feature transform   x · W   has, at row p and column q, the value  ∑ k, x (p, k) · W (k, q);

    the update   max (s · x + agg + b, 0)   of the nodes' own features x (scaled by the number of the word s), the
      aggregated messages agg and the bias vector b has, at (p, q), the value
        max ((s · x (p, q) + agg (p, q)) + b q, 0);
      with s the zero word the own features drop out (0 · x = 0 for every extended real, infinities included), and
      with s the word of one the value is  max (x (p, q) + (agg (p, q) + b q), 0)  (addition is associative with no
      finiteness needed);

    the readout   x · W + b   has the value  (∑ k, x (p, k) · W (k, q)) + b q.

  Each is stated once as a function of whole arrays for any extents, then met in the form a kernel tile computes it
  and in the form a host program computes it.
-/
import proofs.«117175_j71751723647605_1_alg».proof.Proof.LibDenseLayer

open scoped BigOperators

noncomputable section

namespace Cert.GcnPieces

open Idealize.ShloMosaic Idealize.ShloMosaic.ValueIdx Cert.DenseLayer

variable {A K B : ℕ}

/-- The feature transform: entry (p, q) is row p of the features against column q of the weights. -/
def prod (x : FVec Ideal ⟨2, ![A, K]⟩ .f32) (w : FVec Ideal ⟨2, ![K, B]⟩ .f32) : FVec Ideal ⟨2, ![A, B]⟩ .f32 :=
  fun i => ∑ k : Fin K, (x (ix2 (i 0) k) : EReal) * (w (ix2 k (i 1)) : EReal)

theorem prod_ix2 (x : FVec Ideal ⟨2, ![A, K]⟩ .f32) (w : FVec Ideal ⟨2, ![K, B]⟩ .f32) (p : Fin A) (q : Fin B) :
    prod x w (ix2 p q) = ∑ k : Fin K, (x (ix2 p k) : EReal) * (w (ix2 k q) : EReal) := rfl

/-- The update: the own features scaled by the number of the word `s`, plus the aggregate, plus the bias's entry of
    the column, rectified against the number of the zero word. -/
def update (s : BitVec 32) (x agg : FVec Ideal ⟨2, ![A, B]⟩ .f32) (b : FVec Ideal ⟨1, ![B]⟩ .f32) :
    FVec Ideal ⟨2, ![A, B]⟩ .f32 :=
  fun i => max (((Ideal.ofBits .f32 s : EReal) * (x i : EReal) + (agg i : EReal)) + (b (ix1 (i 1)) : EReal))
    (Ideal.ofBits .f32 0x00000000#32)

theorem update_ix2 (s : BitVec 32) (x agg : FVec Ideal ⟨2, ![A, B]⟩ .f32) (b : FVec Ideal ⟨1, ![B]⟩ .f32)
    (p : Fin A) (q : Fin B) :
    update s x agg b (ix2 p q)
      = max (((Ideal.ofBits .f32 s : EReal) * (x (ix2 p q) : EReal) + (agg (ix2 p q) : EReal)) + (b (ix1 q) : EReal))
          (Ideal.ofBits .f32 0x00000000#32) := rfl

/-- The readout: the feature transform plus the bias's entry of the column. -/
def readout (x : FVec Ideal ⟨2, ![A, K]⟩ .f32) (w : FVec Ideal ⟨2, ![K, B]⟩ .f32) (b : FVec Ideal ⟨1, ![B]⟩ .f32) :
    FVec Ideal ⟨2, ![A, B]⟩ .f32 :=
  fun i => (∑ k : Fin K, (x (ix2 (i 0) k) : EReal) * (w (ix2 k (i 1)) : EReal)) + (b (ix1 (i 1)) : EReal)

theorem readout_ix2 (x : FVec Ideal ⟨2, ![A, K]⟩ .f32) (w : FVec Ideal ⟨2, ![K, B]⟩ .f32) (b : FVec Ideal ⟨1, ![B]⟩ .f32)
    (p : Fin A) (q : Fin B) :
    readout x w b (ix2 p q) = (∑ k : Fin K, (x (ix2 p k) : EReal) * (w (ix2 k q) : EReal)) + (b (ix1 q) : EReal) := rfl

/-- With the zero word as the scale the own features drop out: zero times any extended real is zero. -/
theorem update_zero_ix2 (x agg : FVec Ideal ⟨2, ![A, B]⟩ .f32) (b : FVec Ideal ⟨1, ![B]⟩ .f32) (p : Fin A) (q : Fin B) :
    update 0x00000000#32 x agg b (ix2 p q)
      = max ((agg (ix2 p q) : EReal) + (b (ix1 q) : EReal)) (Ideal.ofBits .f32 0x00000000#32) := by
  rw [update_ix2, Ideal.ofBits_zero_f32, zero_mul, zero_add]

/-- With the word of one as the scale the own features are added as they are, and the sum re-associates. -/
theorem update_one_ix2 (x agg : FVec Ideal ⟨2, ![A, B]⟩ .f32) (b : FVec Ideal ⟨1, ![B]⟩ .f32) (p : Fin A) (q : Fin B) :
    update 0x3F800000#32 x agg b (ix2 p q)
      = max ((x (ix2 p q) : EReal) + ((agg (ix2 p q) : EReal) + (b (ix1 q) : EReal))) (Ideal.ofBits .f32 0x00000000#32) := by
  rw [update_ix2, one_word, one_mul, add_assoc]

/-! ## Row locality: an entry reads one row of the row operands -/

section Rows

variable {A' : ℕ}

/-- Entry i of the feature transform over one array is entry i' of it over another when row (i 0) of the one is
    row (i' 0) of the other and column (i 1) of the one's weights is column (i' 1) of the other's. -/
theorem prod_rows (x : FVec Ideal ⟨2, ![A, K]⟩ .f32) (w : FVec Ideal ⟨2, ![K, B]⟩ .f32)
    (x' : FVec Ideal ⟨2, ![A', K]⟩ .f32) (w' : FVec Ideal ⟨2, ![K, B]⟩ .f32)
    (i : (⟨2, ![A, B]⟩ : Shape).Idx) (i' : (⟨2, ![A', B]⟩ : Shape).Idx)
    (hx : ∀ k : Fin K, x (ix2 (i 0) k) = x' (ix2 (i' 0) k))
    (hw : ∀ k : Fin K, w (ix2 k (i 1)) = w' (ix2 k (i' 1))) : prod x w i = prod x' w' i' := by
  unfold prod
  exact Finset.sum_congr rfl fun k _ => by rw [hx k, hw k]

/-- The same for the readout, with the bias's entry of the column. -/
theorem readout_rows (x : FVec Ideal ⟨2, ![A, K]⟩ .f32) (w : FVec Ideal ⟨2, ![K, B]⟩ .f32) (b : FVec Ideal ⟨1, ![B]⟩ .f32)
    (x' : FVec Ideal ⟨2, ![A', K]⟩ .f32) (w' : FVec Ideal ⟨2, ![K, B]⟩ .f32) (b' : FVec Ideal ⟨1, ![B]⟩ .f32)
    (i : (⟨2, ![A, B]⟩ : Shape).Idx) (i' : (⟨2, ![A', B]⟩ : Shape).Idx)
    (hx : ∀ k : Fin K, x (ix2 (i 0) k) = x' (ix2 (i' 0) k))
    (hw : ∀ k : Fin K, w (ix2 k (i 1)) = w' (ix2 k (i' 1)))
    (hb : b (ix1 (i 1)) = b' (ix1 (i' 1))) : readout x w b i = readout x' w' b' i' := by
  unfold readout
  rw [hb]
  exact congrArg (· + (b' (ix1 (i' 1)) : EReal)) (Finset.sum_congr rfl fun k _ => by rw [hx k, hw k])

/-- The update reads its entry of the own features and of the aggregate, and the bias's entry of the column. -/
theorem update_rows (s : BitVec 32) (x agg : FVec Ideal ⟨2, ![A, B]⟩ .f32) (b : FVec Ideal ⟨1, ![B]⟩ .f32)
    (x' agg' : FVec Ideal ⟨2, ![A', B]⟩ .f32) (b' : FVec Ideal ⟨1, ![B]⟩ .f32)
    (i : (⟨2, ![A, B]⟩ : Shape).Idx) (i' : (⟨2, ![A', B]⟩ : Shape).Idx)
    (hx : x i = x' i') (ha : agg i = agg' i') (hb : b (ix1 (i 1)) = b' (ix1 (i' 1))) :
    update s x agg b i = update s x' agg' b' i' := by
  unfold update
  rw [hx, ha, hb]

end Rows

/-- The zero offsets of a whole two-axis block, and of a whole one-axis block. -/
theorem hz2 : (![0, 0] : Fin 2 → Nat) = fun _ => 0 := funext fun a => by fin_cases a <;> rfl
theorem hz1 : (![0] : Fin 1 → Nat) = fun _ => 0 := funext fun a => by fin_cases a; rfl

/-! ## The forms a kernel tile computes -/

section Tile

variable {φ₁ φ₂ : FTy} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])
  (hr : d.contr.rank = 1) (hs : d.contr.size ⟨0, by omega⟩ = K) (prec : Option ContractPrecision)

include hlb hln hlc hrb hrn hrc hr hs

/-- The feature transform of a tile: both operands narrowed (the identity on exact values), the matrix unit's product
    into the zero tile. -/
theorem tile_prod_apply (x : FVec Ideal ⟨2, ![A, K]⟩ .f32) (w : FVec Ideal ⟨2, ![K, B]⟩ .f32)
    (hb : FTy.bits .bf16 < FTy.bits .f32) (p : Fin A) (q : Fin B) :
    matmul d prec (truncf .bf16 x hb) (truncf .bf16 w hb) (constant ⟨2, ![A, B]⟩ .f32 0x00000000#32) (ix2 p q)
      = prod x w (ix2 p q) :=
  tile_product_apply d hlb hln hlc hrb hrn hrc hr hs prec (truncf .bf16 x hb) (truncf .bf16 w hb) p q

/-- The readout of a tile: the narrowed operands' product into the zero tile, plus the bias recast to one row and
    repeated down the rows. -/
theorem tile_readout_apply (x : FVec Ideal ⟨2, ![A, K]⟩ .f32) (w : FVec Ideal ⟨2, ![K, B]⟩ .f32)
    (c : FVec Ideal ⟨1, ![B]⟩ .f32) (hb : FTy.bits .bf16 < FTy.bits .f32)
    (h1 : (⟨1, ![B]⟩ : Shape).ShapeCasts ⟨2, ![1, B]⟩) (h2 : (⟨2, ![1, B]⟩ : Shape).Broadcasts ⟨2, ![A, B]⟩)
    (p : Fin A) (q : Fin B) :
    addf (matmul d prec (truncf .bf16 x hb) (truncf .bf16 w hb) (constant ⟨2, ![A, B]⟩ .f32 0x00000000#32))
        (broadcastTo ⟨2, ![A, B]⟩ (shapeCast ⟨2, ![1, B]⟩ c h1) h2) (ix2 p q)
      = readout x w c (ix2 p q) :=
  tile_affine_apply d hlb hln hlc hrb hrn hrc hr hs prec (truncf .bf16 x hb) (truncf .bf16 w hb) c h1 h2 p q

end Tile

/-- The update of a tile: the splat scale times the own features, plus the aggregate, plus the bias recast to one row
    and repeated down the rows, the larger of that and the splat zero. -/
theorem tile_update_apply (s : BitVec 32) (x agg : FVec Ideal ⟨2, ![A, B]⟩ .f32) (c : FVec Ideal ⟨1, ![B]⟩ .f32)
    (h1 : (⟨1, ![B]⟩ : Shape).ShapeCasts ⟨2, ![1, B]⟩) (h2 : (⟨2, ![1, B]⟩ : Shape).Broadcasts ⟨2, ![A, B]⟩)
    (p : Fin A) (q : Fin B) :
    maximumf (addf (addf (mulf (broadcast ⟨2, ![A, B]⟩ (Scalar.ofBits (F := Ideal) .f32 s)) x) agg)
        (broadcastTo ⟨2, ![A, B]⟩ (shapeCast ⟨2, ![1, B]⟩ c h1) h2))
      (broadcast ⟨2, ![A, B]⟩ (Scalar.ofBits (F := Ideal) .f32 0x00000000#32)) (ix2 p q)
      = update s x agg c (ix2 p q) := by
  show max (((Ideal.ofBits .f32 s : EReal) * (x (ix2 p q) : EReal) + (agg (ix2 p q) : EReal))
      + broadcastTo ⟨2, ![A, B]⟩ (shapeCast ⟨2, ![1, B]⟩ c h1) h2 (ix2 p q)) (Ideal.ofBits .f32 0x00000000#32) = _
  rw [broadcastTo_1b_ab_apply, shapeCast_a_1a_apply]
  rfl

/-! ## The forms a host program computes -/

section Host

variable {φ₁ φ₂ : FTy} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])
  (hr : d.contr.rank = 1) (hs : d.contr.size ⟨0, by omega⟩ = K) (prec : Option ContractPrecision)

include hlb hln hlc hrb hrn hrc hr hs

/-- The host's general product of whole arrays is the feature transform. -/
theorem host_prod (x : FVec Ideal ⟨2, ![A, K]⟩ .f32) (w : FVec Ideal ⟨2, ![K, B]⟩ .f32) :
    Host.dotGeneral d prec x w = prod x w := by
  funext i
  obtain ⟨p, q, rfl⟩ : ∃ (p : Fin A) (q : Fin B), i = ix2 p q := ⟨i 0, i 1, eq_ix2 i⟩
  exact host_product_apply d hlb hln hlc hrb hrn hrc hr hs prec x w p q

/-- The host's general product plus the bias placed by two broadcasts is the readout. -/
theorem host_readout (x : FVec Ideal ⟨2, ![A, K]⟩ .f32) (w : FVec Ideal ⟨2, ![K, B]⟩ .f32) (c : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![A, B]⟩ ![0, 1]) :
    addf (Host.dotGeneral d prec x w)
        (broadcastInDim ⟨2, ![A, B]⟩ ![0, 1] h2 (broadcastInDim ⟨2, ![1, B]⟩ ![1] h1 c)) = readout x w c := by
  funext i
  obtain ⟨p, q, rfl⟩ : ∃ (p : Fin A) (q : Fin B), i = ix2 p q := ⟨i 0, i 1, eq_ix2 i⟩
  exact host_affine_apply d hlb hln hlc hrb hrn hrc hr hs prec x w c h1 h2 p q

end Host

/-- The first layer of the host program: the aggregate plus the bias placed by two broadcasts, rectified against the
    rank-0 zero broadcast over the shape, is the update with the zero scale, whatever the own features. -/
theorem host_update_zero (x agg : FVec Ideal ⟨2, ![A, B]⟩ .f32) (c : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![A, B]⟩ ![0, 1])
    (dims : Fin (⟨0, ![]⟩ : Shape).rank → Fin (⟨2, ![A, B]⟩ : Shape).rank)
    (h0 : (⟨0, ![]⟩ : Shape).BroadcastsInDim ⟨2, ![A, B]⟩ dims) :
    maximumf (addf agg (broadcastInDim ⟨2, ![A, B]⟩ ![0, 1] h2 (broadcastInDim ⟨2, ![1, B]⟩ ![1] h1 c)))
      (broadcastInDim ⟨2, ![A, B]⟩ dims h0 (constant (F := Ideal) ⟨0, ![]⟩ .f32 0x00000000#32))
      = update 0x00000000#32 x agg c := by
  funext i
  obtain ⟨p, q, rfl⟩ : ∃ (p : Fin A) (q : Fin B), i = ix2 p q := ⟨i 0, i 1, eq_ix2 i⟩
  rw [update_zero_ix2]
  show max ((agg (ix2 p q) : EReal)
        + broadcastInDim ⟨2, ![A, B]⟩ ![0, 1] h2 (broadcastInDim ⟨2, ![1, B]⟩ ![1] h1 c) (ix2 p q))
      (broadcastInDim ⟨2, ![A, B]⟩ dims h0 (constant (F := Ideal) ⟨0, ![]⟩ .f32 0x00000000#32) (ix2 p q)) = _
  rw [Cert.BiasRow.down_apply, Cert.BiasRow.row_apply, scalar_apply]
  rfl

/-- A later layer of the host program: the own features plus (the aggregate plus the bias), rectified, is the update
    with the scale one. -/
theorem host_update_one (x agg : FVec Ideal ⟨2, ![A, B]⟩ .f32) (c : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![A, B]⟩ ![0, 1])
    (dims : Fin (⟨0, ![]⟩ : Shape).rank → Fin (⟨2, ![A, B]⟩ : Shape).rank)
    (h0 : (⟨0, ![]⟩ : Shape).BroadcastsInDim ⟨2, ![A, B]⟩ dims) :
    maximumf (addf x (addf agg (broadcastInDim ⟨2, ![A, B]⟩ ![0, 1] h2 (broadcastInDim ⟨2, ![1, B]⟩ ![1] h1 c))))
      (broadcastInDim ⟨2, ![A, B]⟩ dims h0 (constant (F := Ideal) ⟨0, ![]⟩ .f32 0x00000000#32))
      = update 0x3F800000#32 x agg c := by
  funext i
  obtain ⟨p, q, rfl⟩ : ∃ (p : Fin A) (q : Fin B), i = ix2 p q := ⟨i 0, i 1, eq_ix2 i⟩
  rw [update_one_ix2]
  show max ((x (ix2 p q) : EReal) + ((agg (ix2 p q) : EReal)
        + broadcastInDim ⟨2, ![A, B]⟩ ![0, 1] h2 (broadcastInDim ⟨2, ![1, B]⟩ ![1] h1 c) (ix2 p q)))
      (broadcastInDim ⟨2, ![A, B]⟩ dims h0 (constant (F := Ideal) ⟨0, ![]⟩ .f32 0x00000000#32) (ix2 p q)) = _
  rw [Cert.BiasRow.down_apply, Cert.BiasRow.row_apply, scalar_apply]
  rfl

end Cert.GcnPieces

end
-- ==== Proof.Region0.lean ====
/-
  Launch 0: the feature transform, over ten blocks of ten thousand rows.

  Each grid point loads its block of rows of the features and the whole weight matrix, and stores the product of the
  two (narrowed to half precision first, which is the identity on exact values) into its block of rows of the
  result. Entry (p, q) of a block's product reads row p of the block only, and block t's row p is row 10000·t + p of
  the array; the ten blocks tile the hundred thousand rows. So the result array ends as the feature transform of the
  whole arrays the launch found.
-/
import proofs.«117175_j71751723647605_1_alg».proof.Proof.Gen.KernelIdeal.Frame
import proofs.«117175_j71751723647605_1_alg».proof.Proof.LibGcnPieces
import Idealize.ShloMosaic.Lib.Pipeline.Value

set_option maxRecDepth 16384

open scoped BigOperators

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The body's stored value at an entry: row p of the loaded features against column q of the loaded weights. -/
theorem pay0_eq (x0 : Vec Ideal S10000x64 .f32) (x1 : Vec Ideal S64x64 .f32) :
    k0_pay1 x0 x1 = Cert.GcnPieces.prod x0 x1 := by
  funext j
  obtain ⟨p, q, rfl⟩ : ∃ (p : Fin 10000) (q : Fin 64), j = ix2 p q := ⟨j 0, j 1, eq_ix2 j⟩
  unfold k0_pay1
  simp only [shapeCast_self]
  exact Cert.GcnPieces.tile_prod_apply dot_S10000x64_S64x64_S10000x64_1_0_0_1_n_n rfl rfl rfl rfl rfl rfl rfl rfl none
    x0 x1 bitsLt_bf16_f32 p q

/-- The index maps over the grid: the features' and the result's blocks move together down the rows, block t at
    block row t; the weights' block stays put. -/
theorem idx0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What point t writes back is block t of the feature transform of the arrays the launch found. -/
theorem flushed0 (c : Dev nD) (t : Fin cfg0.N) :
    (dat0 V c).flushed 2 t = ((cfg0.win 2).blk t).view.read (Elt Ideal)
      (Cert.GcnPieces.prod (V c main_arg0) (V c main_v33)) := by
  show (cfg0.win 2).cut (grid0.coords t) ((dat0 V c).after 2 t) = _
  rw [after0_2]
  unfold out0_2
  rw [View.canon_unit_zero Cert.GcnPieces.hz2]
  simp only [View.ld_unit_zero (S := S10000x64) Cert.GcnPieces.hz2, View.ld_unit_zero (S := S64x64) Cert.GcnPieces.hz2]
  rw [pay0_eq]
  obtain ⟨e0, e1, e2, e3, e4, e5⟩ := idx0 t
  funext j
  show Cert.GcnPieces.prod (iblk0 V c 0 t) (iblk0 V c 1 t) j
    = Cert.GcnPieces.prod (V c main_arg0) (V c main_v33) (((cfg0.win 2).blk t).view.emb j)
  refine Cert.GcnPieces.prod_rows _ _ _ _ j _ (fun k => ?_) (fun k => ?_)
  · show V c main_arg0 (((cfg0.win 0).blk t).view.emb (ix2 (j 0) k))
      = V c main_arg0 (ix2 ((((cfg0.win 2).blk t).view.emb j) 0) k)
    refine congrArg (V c main_arg0) (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 64 + 1 * k.val = k.val
      omega
  · show V c main_v33 (((cfg0.win 1).blk t).view.emb (ix2 k (j 1)))
      = V c main_v33 (ix2 k ((((cfg0.win 2).blk t).view.emb j) 1))
    refine congrArg (V c main_v33) (funext fun a => Fin.ext ?_)
    match a with
    | ⟨0, _⟩ =>
      show win0_1.index t (0 : Fin 2) * 64 + 1 * k.val = k.val
      omega
    | ⟨1, _⟩ =>
      show win0_1.index t (1 : Fin 2) * 64 + 1 * (j 1).val = win0_2.index t (1 : Fin 2) * 64 + 1 * (j 1).val
      omega

/-- An index of the result array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v34).slice (win0_2.rect t)).set ↔ _
  rw [View.set_slice_whole, Rect.mem_set_unit]
  exact Iff.rfl

/-- Every row is in some point's block: row r in block r / 10000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  have ht : (i 0).val / 10000 < grid0.N := by rw [hN]; omega
  obtain ⟨e0, e1, e2, e3, e4, e5⟩ := idx0 ⟨(i 0).val / 10000, ht⟩
  have e5' : win0_2.index ⟨(i 0).val / 10000, ht⟩ (0 : Fin 2) = (i 0).val / 10000 := e5
  refine ⟨⟨(i 0).val / 10000, ht⟩, flush0_2 _, ?_⟩
  rw [mem_blk0]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    omega
  | ⟨1, _⟩ =>
    show win0_2.index ⟨(i 0).val / 10000, ht⟩ (1 : Fin 2) * 64 ≤ (i 1).val
      ∧ (i 1).val < win0_2.index ⟨(i 0).val / 10000, ht⟩ (1 : Fin 2) * 64 + 64
    omega

/-- The result array after the launch: the feature transform of the arrays it found. -/
theorem final0 (c : Dev nD) :
    (dat0 V c).arrAt 2 cfg0.N = Cert.GcnPieces.prod (V c main_arg0) (V c main_v33) :=
  (dat0 V c).arrAt_eq_of_cover 2 _ (fun t _ => flushed0 V c t) (cover0)

end Cert.KernelIdeal.Whole

end
-- ==== Proof.Region1.lean ====
/-
  Launch 1: bias, the own features scaled by zero and the rectifier, over ten blocks of ten thousand rows.

  Each grid point loads its block of rows of the own features and of the aggregated messages and the whole bias
  vector, and stores  max (s · x + agg + b, 0)  into its block of rows of the result, the bias recast to one row and
  repeated down the rows. An entry reads its own entry of the two row operands and the bias's entry of its column;
  block t's row p is row 10000·t + p of the array; the ten blocks tile the hundred thousand rows. So the result array
  ends as the update of the whole arrays the launch found.
-/
import proofs.«117175_j71751723647605_1_alg».proof.Proof.Gen.KernelIdeal.Frame
import proofs.«117175_j71751723647605_1_alg».proof.Proof.LibGcnPieces
import Idealize.ShloMosaic.Lib.Pipeline.Value

set_option maxRecDepth 16384

open scoped BigOperators

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The body's stored value: the update of the loaded blocks, the scale the number of the word the body splats. -/
theorem pay1_eq (b : Vec Ideal S64 .f32) (x agg : Vec Ideal S10000x64 .f32) :
    k1_pay1 b x agg = Cert.GcnPieces.update 0x00000000#32 x agg b := by
  funext j
  obtain ⟨p, q, rfl⟩ : ∃ (p : Fin 10000) (q : Fin 64), j = ix2 p q := ⟨j 0, j 1, eq_ix2 j⟩
  unfold k1_pay1
  simp only [shapeCast_self]
  exact Cert.GcnPieces.tile_update_apply 0x00000000#32 x agg b shapeCasts_S64_S1x64 broadcasts_S1x64_S10000x64 p q

/-- The index maps over the grid: the two row operands' and the result's blocks move together down the rows, block t
    at block row t; the bias's block stays put. -/
theorem idx1 : ∀ t : Fin cfg1.N, win1_0.index t (0 : Fin 2) = win1_3.index t (0 : Fin 2)
    ∧ win1_0.index t (1 : Fin 2) = 0 ∧ win1_1.index t (0 : Fin 2) = win1_3.index t (0 : Fin 2)
    ∧ win1_1.index t (1 : Fin 2) = 0 ∧ win1_2.index t (0 : Fin 1) = 0
    ∧ win1_3.index t (1 : Fin 2) = 0 ∧ win1_3.index t (0 : Fin 2) = t.val :=
  (by decide +kernel : ∀ t : Fin grid1.N, _)

/-- What point t writes back is block t of the update of the arrays the launch found. -/
theorem flushed1 (c : Dev nD) (t : Fin cfg1.N) :
    (dat1 V c).flushed 3 t = ((cfg1.win 3).blk t).view.read (Elt Ideal)
      (Cert.GcnPieces.update 0x00000000#32 (V c main_arg0) (V c main_v47) (V c main_v49)) := by
  show (cfg1.win 3).cut (grid1.coords t) ((dat1 V c).after 3 t) = _
  rw [after1_3]
  unfold out1_3
  rw [View.canon_unit_zero Cert.GcnPieces.hz2]
  simp only [View.ld_unit_zero (S := S10000x64) Cert.GcnPieces.hz2, View.ld_unit_zero (S := S64) Cert.GcnPieces.hz1]
  rw [pay1_eq]
  obtain ⟨e0, e1, e2, e3, e4, e5, e6⟩ := idx1 t
  funext j
  show Cert.GcnPieces.update 0x00000000#32 (iblk1 V c 0 t) (iblk1 V c 1 t) (iblk1 V c 2 t) j
    = Cert.GcnPieces.update 0x00000000#32 (V c main_arg0) (V c main_v47) (V c main_v49) (((cfg1.win 3).blk t).view.emb j)
  refine Cert.GcnPieces.update_rows 0x00000000#32 _ _ _ _ _ _ j _ ?_ ?_ ?_
  · show V c main_arg0 (((cfg1.win 0).blk t).view.emb j) = V c main_arg0 (((cfg1.win 3).blk t).view.emb j)
    refine congrArg (V c main_arg0) (funext fun a => Fin.ext ?_)
    match a with
    | ⟨0, _⟩ =>
      show win1_0.index t (0 : Fin 2) * 10000 + 1 * (j 0).val = win1_3.index t (0 : Fin 2) * 10000 + 1 * (j 0).val
      omega
    | ⟨1, _⟩ =>
      show win1_0.index t (1 : Fin 2) * 64 + 1 * (j 1).val = win1_3.index t (1 : Fin 2) * 64 + 1 * (j 1).val
      omega
  · show V c main_v47 (((cfg1.win 1).blk t).view.emb j) = V c main_v47 (((cfg1.win 3).blk t).view.emb j)
    refine congrArg (V c main_v47) (funext fun a => Fin.ext ?_)
    match a with
    | ⟨0, _⟩ =>
      show win1_1.index t (0 : Fin 2) * 10000 + 1 * (j 0).val = win1_3.index t (0 : Fin 2) * 10000 + 1 * (j 0).val
      omega
    | ⟨1, _⟩ =>
      show win1_1.index t (1 : Fin 2) * 64 + 1 * (j 1).val = win1_3.index t (1 : Fin 2) * 64 + 1 * (j 1).val
      omega
  · show V c main_v49 (((cfg1.win 2).blk t).view.emb (ix1 (j 1)))
      = V c main_v49 (ix1 ((((cfg1.win 3).blk t).view.emb j) 1))
    refine congrArg (V c main_v49) (funext fun a => Fin.ext ?_)
    match a with
    | ⟨0, _⟩ =>
      show win1_2.index t (0 : Fin 1) * 64 + 1 * (j 1).val = win1_3.index t (1 : Fin 2) * 64 + 1 * (j 1).val
      omega

/-- An index of the result array is in point t's block iff each coordinate is in the block's range on its axis. -/
theorem mem_blk1 (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v50).slice (win1_3.rect t)).set ↔ _
  rw [View.set_slice_whole, Rect.mem_set_unit]
  exact Iff.rfl

/-- Every row is in some point's block: row r in block r / 10000. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 10 := N_1
  have ht : (i 0).val / 10000 < grid1.N := by rw [hN]; omega
  obtain ⟨e0, e1, e2, e3, e4, e5, e6⟩ := idx1 ⟨(i 0).val / 10000, ht⟩
  have e6' : win1_3.index ⟨(i 0).val / 10000, ht⟩ (0 : Fin 2) = (i 0).val / 10000 := e6
  refine ⟨⟨(i 0).val / 10000, ht⟩, flush1_3 _, ?_⟩
  rw [mem_blk1]
  intro a
  match a with
  | ⟨0, _⟩ =>
    show win1_3.index ⟨(i 0).val / 10000, ht⟩ (0 : Fin 2) * 10000 ≤ (i 0).val
      ∧ (i 0).val < win1_3.index ⟨(i 0).val / 10000, ht⟩ (0 : Fin 2) * 10000 + 10000
    omega
  | ⟨1, _⟩ =>
    show win1_3.index ⟨(i 0).val / 10000, ht⟩ (1 : Fin 2) * 64 ≤ (i 1).val
      ∧ (i 1).val < win1_3.index ⟨(i 0).val / 10000, ht⟩ (1 : Fin 2) * 64 + 64
    omega

/-- The result array after the launch: the update of the arrays it found. -/
theorem final1 (c : Dev nD) :
    (dat1 V c).arrAt 3 cfg1.N
      = Cert.GcnPieces.update 0x00000000#32 (V c main_arg0) (V c main_v47) (V c main_v49) :=
  (dat1 V c).arrAt_eq_of_cover 3 _ (fun t _ => flushed1 V c t) (cover1)

end Cert.KernelIdeal.Whole

end
-- ==== Proof.Region2.lean ====
/-
  Launch 2: the feature transform, over ten blocks of ten thousand rows.

  Each grid point loads its block of rows of the features and the whole weight matrix, and stores the product of the
  two (narrowed to half precision first, which is the identity on exact values) into its block of rows of the
  result. Entry (p, q) of a block's product reads row p of the block only, and block t's row p is row 10000·t + p of
  the array; the ten blocks tile the hundred thousand rows. So the result array ends as the feature transform of the
  whole arrays the launch found.
-/
import proofs.«117175_j71751723647605_1_alg».proof.Proof.Gen.KernelIdeal.Frame
import proofs.«117175_j71751723647605_1_alg».proof.Proof.LibGcnPieces
import Idealize.ShloMosaic.Lib.Pipeline.Value

set_option maxRecDepth 16384

open scoped BigOperators

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The body's stored value at an entry: row p of the loaded features against column q of the loaded weights. -/
theorem pay2_eq (x0 : Vec Ideal S10000x64 .f32) (x1 : Vec Ideal S64x64 .f32) :
    k2_pay1 x0 x1 = Cert.GcnPieces.prod x0 x1 := by
  funext j
  obtain ⟨p, q, rfl⟩ : ∃ (p : Fin 10000) (q : Fin 64), j = ix2 p q := ⟨j 0, j 1, eq_ix2 j⟩
  unfold k2_pay1
  simp only [shapeCast_self]
  exact Cert.GcnPieces.tile_prod_apply dot_S10000x64_S64x64_S10000x64_1_0_0_1_n_n rfl rfl rfl rfl rfl rfl rfl rfl none
    x0 x1 bitsLt_bf16_f32 p q

/-- The index maps over the grid: the features' and the result's blocks move together down the rows, block t at
    block row t; the weights' block stays put. -/
theorem idx2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) = t.val :=
  (by decide +kernel : ∀ t : Fin grid2.N, _)

/-- What point t writes back is block t of the feature transform of the arrays the launch found. -/
theorem flushed2 (c : Dev nD) (t : Fin cfg2.N) :
    (dat2 V c).flushed 2 t = ((cfg2.win 2).blk t).view.read (Elt Ideal)
      (Cert.GcnPieces.prod (V c main_v50) (V c main_v52)) := by
  show (cfg2.win 2).cut (grid2.coords t) ((dat2 V c).after 2 t) = _
  rw [after2_2]
  unfold out2_2
  rw [View.canon_unit_zero Cert.GcnPieces.hz2]
  simp only [View.ld_unit_zero (S := S10000x64) Cert.GcnPieces.hz2, View.ld_unit_zero (S := S64x64) Cert.GcnPieces.hz2]
  rw [pay2_eq]
  obtain ⟨e0, e1, e2, e3, e4, e5⟩ := idx2 t
  funext j
  show Cert.GcnPieces.prod (iblk2 V c 0 t) (iblk2 V c 1 t) j
    = Cert.GcnPieces.prod (V c main_v50) (V c main_v52) (((cfg2.win 2).blk t).view.emb j)
  refine Cert.GcnPieces.prod_rows _ _ _ _ j _ (fun k => ?_) (fun k => ?_)
  · show V c main_v50 (((cfg2.win 0).blk t).view.emb (ix2 (j 0) k))
      = V c main_v50 (ix2 ((((cfg2.win 2).blk t).view.emb j) 0) k)
    refine congrArg (V c main_v50) (funext fun a => Fin.ext ?_)
    match a with
    | ⟨0, _⟩ =>
      show win2_0.index t (0 : Fin 2) * 10000 + 1 * (j 0).val = win2_2.index t (0 : Fin 2) * 10000 + 1 * (j 0).val
      omega
    | ⟨1, _⟩ =>
      show win2_0.index t (1 : Fin 2) * 64 + 1 * k.val = k.val
      omega
  · show V c main_v52 (((cfg2.win 1).blk t).view.emb (ix2 k (j 1)))
      = V c main_v52 (ix2 k ((((cfg2.win 2).blk t).view.emb j) 1))
    refine congrArg (V c main_v52) (funext fun a => Fin.ext ?_)
    match a with
    | ⟨0, _⟩ =>
      show win2_1.index t (0 : Fin 2) * 64 + 1 * k.val = k.val
      omega
    | ⟨1, _⟩ =>
      show win2_1.index t (1 : Fin 2) * 64 + 1 * (j 1).val = win2_2.index t (1 : Fin 2) * 64 + 1 * (j 1).val
      omega

/-- An index of the result array is in point t's block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v53).slice (win2_2.rect t)).set ↔ _
  rw [View.set_slice_whole, Rect.mem_set_unit]
  exact Iff.rfl

/-- Every row is in some point's block: row r in block r / 10000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 10 := N_2
  have ht : (i 0).val / 10000 < grid2.N := by rw [hN]; omega
  obtain ⟨e0, e1, e2, e3, e4, e5⟩ := idx2 ⟨(i 0).val / 10000, ht⟩
  have e5' : win2_2.index ⟨(i 0).val / 10000, ht⟩ (0 : Fin 2) = (i 0).val / 10000 := e5
  refine ⟨⟨(i 0).val / 10000, ht⟩, flush2_2 _, ?_⟩
  rw [mem_blk2]
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    omega
  | ⟨1, _⟩ =>
    show win2_2.index ⟨(i 0).val / 10000, ht⟩ (1 : Fin 2) * 64 ≤ (i 1).val
      ∧ (i 1).val < win2_2.index ⟨(i 0).val / 10000, ht⟩ (1 : Fin 2) * 64 + 64
    omega

/-- The result array after the launch: the feature transform of the arrays it found. -/
theorem final2 (c : Dev nD) :
    (dat2 V c).arrAt 2 cfg2.N = Cert.GcnPieces.prod (V c main_v50) (V c main_v52) :=
  (dat2 V c).arrAt_eq_of_cover 2 _ (fun t _ => flushed2 V c t) (cover2)

end Cert.KernelIdeal.Whole

end
-- ==== Proof.Region3.lean ====
/-
  Launch 3: bias, the residual and the rectifier, over ten blocks of ten thousand rows.

  Each grid point loads its block of rows of the own features and of the aggregated messages and the whole bias
  vector, and stores  max (s · x + agg + b, 0)  into its block of rows of the result, the bias recast to one row and
  repeated down the rows. An entry reads its own entry of the two row operands and the bias's entry of its column;
  block t's row p is row 10000·t + p of the array; the ten blocks tile the hundred thousand rows. So the result array
  ends as the update of the whole arrays the launch found.
-/
import proofs.«117175_j71751723647605_1_alg».proof.Proof.Gen.KernelIdeal.Frame
import proofs.«117175_j71751723647605_1_alg».proof.Proof.LibGcnPieces
import Idealize.ShloMosaic.Lib.Pipeline.Value

set_option maxRecDepth 16384

open scoped BigOperators

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The body's stored value: the update of the loaded blocks, the scale the number of the word the body splats. -/
theorem pay3_eq (b : Vec Ideal S64 .f32) (x agg : Vec Ideal S10000x64 .f32) :
    k3_pay1 b x agg = Cert.GcnPieces.update 0x3F800000#32 x agg b := by
  funext j
  obtain ⟨p, q, rfl⟩ : ∃ (p : Fin 10000) (q : Fin 64), j = ix2 p q := ⟨j 0, j 1, eq_ix2 j⟩
  unfold k3_pay1
  simp only [shapeCast_self]
  exact Cert.GcnPieces.tile_update_apply 0x3F800000#32 x agg b shapeCasts_S64_S1x64 broadcasts_S1x64_S10000x64 p q

/-- The index maps over the grid: the two row operands' and the result's blocks move together down the rows, block t
    at block row t; the bias's block stays put. -/
theorem idx3 : ∀ t : Fin cfg3.N, win3_0.index t (0 : Fin 2) = win3_3.index t (0 : Fin 2)
    ∧ win3_0.index t (1 : Fin 2) = 0 ∧ win3_1.index t (0 : Fin 2) = win3_3.index t (0 : Fin 2)
    ∧ win3_1.index t (1 : Fin 2) = 0 ∧ win3_2.index t (0 : Fin 1) = 0
    ∧ win3_3.index t (1 : Fin 2) = 0 ∧ win3_3.index t (0 : Fin 2) = t.val :=
  (by decide +kernel : ∀ t : Fin grid3.N, _)

/-- What point t writes back is block t of the update of the arrays the launch found. -/
theorem flushed3 (c : Dev nD) (t : Fin cfg3.N) :
    (dat3 V c).flushed 3 t = ((cfg3.win 3).blk t).view.read (Elt Ideal)
      (Cert.GcnPieces.update 0x3F800000#32 (V c main_v50) (V c main_v66) (V c main_v68)) := by
  show (cfg3.win 3).cut (grid3.coords t) ((dat3 V c).after 3 t) = _
  rw [after3_3]
  unfold out3_3
  rw [View.canon_unit_zero Cert.GcnPieces.hz2]
  simp only [View.ld_unit_zero (S := S10000x64) Cert.GcnPieces.hz2, View.ld_unit_zero (S := S64) Cert.GcnPieces.hz1]
  rw [pay3_eq]
  obtain ⟨e0, e1, e2, e3, e4, e5, e6⟩ := idx3 t
  funext j
  show Cert.GcnPieces.update 0x3F800000#32 (iblk3 V c 0 t) (iblk3 V c 1 t) (iblk3 V c 2 t) j
    = Cert.GcnPieces.update 0x3F800000#32 (V c main_v50) (V c main_v66) (V c main_v68) (((cfg3.win 3).blk t).view.emb j)
  refine Cert.GcnPieces.update_rows 0x3F800000#32 _ _ _ _ _ _ j _ ?_ ?_ ?_
  · show V c main_v50 (((cfg3.win 0).blk t).view.emb j) = V c main_v50 (((cfg3.win 3).blk t).view.emb j)
    refine congrArg (V c main_v50) (funext fun a => Fin.ext ?_)
    match a with
    | ⟨0, _⟩ =>
      show win3_0.index t (0 : Fin 2) * 10000 + 1 * (j 0).val = win3_3.index t (0 : Fin 2) * 10000 + 1 * (j 0).val
      omega
    | ⟨1, _⟩ =>
      show win3_0.index t (1 : Fin 2) * 64 + 1 * (j 1).val = win3_3.index t (1 : Fin 2) * 64 + 1 * (j 1).val
      omega
  · show V c main_v66 (((cfg3.win 1).blk t).view.emb j) = V c main_v66 (((cfg3.win 3).blk t).view.emb j)
    refine congrArg (V c main_v66) (funext fun a => Fin.ext ?_)
    match a with
    | ⟨0, _⟩ =>
      show win3_1.index t (0 : Fin 2) * 10000 + 1 * (j 0).val = win3_3.index t (0 : Fin 2) * 10000 + 1 * (j 0).val
      omega
    | ⟨1, _⟩ =>
      show win3_1.index t (1 : Fin 2) * 64 + 1 * (j 1).val = win3_3.index t (1 : Fin 2) * 64 + 1 * (j 1).val
      omega
  · show V c main_v68 (((cfg3.win 2).blk t).view.emb (ix1 (j 1)))
      = V c main_v68 (ix1 ((((cfg3.win 3).blk t).view.emb j) 1))
    refine congrArg (V c main_v68) (funext fun a => Fin.ext ?_)
    match a with
    | ⟨0, _⟩ =>
      show win3_2.index t (0 : Fin 1) * 64 + 1 * (j 1).val = win3_3.index t (1 : Fin 2) * 64 + 1 * (j 1).val
      omega

/-- An index of the result array is in point t's block iff each coordinate is in the block's range on its axis. -/
theorem mem_blk3 (t : Fin cfg3.N) (i : S100000x64.Idx) :
    i ∈ ((cfg3.win 3).blk t).view.set ↔ ∀ a : Fin 2, win3_3.index t a * S10000x64.size a ≤ (i a).val
      ∧ (i a).val < win3_3.index t a * S10000x64.size a + S10000x64.size a := by
  show i ∈ ((View.whole main_v69).slice (win3_3.rect t)).set ↔ _
  rw [View.set_slice_whole, Rect.mem_set_unit]
  exact Iff.rfl

/-- Every row is in some point's block: row r in block r / 10000. -/
theorem cover3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : grid3.N = 10 := N_3
  have ht : (i 0).val / 10000 < grid3.N := by rw [hN]; omega
  obtain ⟨e0, e1, e2, e3, e4, e5, e6⟩ := idx3 ⟨(i 0).val / 10000, ht⟩
  have e6' : win3_3.index ⟨(i 0).val / 10000, ht⟩ (0 : Fin 2) = (i 0).val / 10000 := e6
  refine ⟨⟨(i 0).val / 10000, ht⟩, flush3_3 _, ?_⟩
  rw [mem_blk3]
  intro a
  match a with
  | ⟨0, _⟩ =>
    show win3_3.index ⟨(i 0).val / 10000, ht⟩ (0 : Fin 2) * 10000 ≤ (i 0).val
      ∧ (i 0).val < win3_3.index ⟨(i 0).val / 10000, ht⟩ (0 : Fin 2) * 10000 + 10000
    omega
  | ⟨1, _⟩ =>
    show win3_3.index ⟨(i 0).val / 10000, ht⟩ (1 : Fin 2) * 64 ≤ (i 1).val
      ∧ (i 1).val < win3_3.index ⟨(i 0).val / 10000, ht⟩ (1 : Fin 2) * 64 + 64
    omega

/-- The result array after the launch: the update of the arrays it found. -/
theorem final3 (c : Dev nD) :
    (dat3 V c).arrAt 3 cfg3.N
      = Cert.GcnPieces.update 0x3F800000#32 (V c main_v50) (V c main_v66) (V c main_v68) :=
  (dat3 V c).arrAt_eq_of_cover 3 _ (fun t _ => flushed3 V c t) (cover3)

end Cert.KernelIdeal.Whole

end
-- ==== Proof.Region4.lean ====
/-
  Launch 4: the feature transform, over ten blocks of ten thousand rows.

  Each grid point loads its block of rows of the features and the whole weight matrix, and stores the product of the
  two (narrowed to half precision first, which is the identity on exact values) into its block of rows of the
  result. Entry (p, q) of a block's product reads row p of the block only, and block t's row p is row 10000·t + p of
  the array; the ten blocks tile the hundred thousand rows. So the result array ends as the feature transform of the
  whole arrays the launch found.
-/
import proofs.«117175_j71751723647605_1_alg».proof.Proof.Gen.KernelIdeal.Frame
import proofs.«117175_j71751723647605_1_alg».proof.Proof.LibGcnPieces
import Idealize.ShloMosaic.Lib.Pipeline.Value

set_option maxRecDepth 16384

open scoped BigOperators

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The body's stored value at an entry: row p of the loaded features against column q of the loaded weights. -/
theorem pay4_eq (x0 : Vec Ideal S10000x64 .f32) (x1 : Vec Ideal S64x64 .f32) :
    k4_pay1 x0 x1 = Cert.GcnPieces.prod x0 x1 := by
  funext j
  obtain ⟨p, q, rfl⟩ : ∃ (p : Fin 10000) (q : Fin 64), j = ix2 p q := ⟨j 0, j 1, eq_ix2 j⟩
  unfold k4_pay1
  simp only [shapeCast_self]
  exact Cert.GcnPieces.tile_prod_apply dot_S10000x64_S64x64_S10000x64_1_0_0_1_n_n rfl rfl rfl rfl rfl rfl rfl rfl none
    x0 x1 bitsLt_bf16_f32 p q

/-- The index maps over the grid: the features' and the result's blocks move together down the rows, block t at
    block row t; the weights' block stays put. -/
theorem idx4 : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) = t.val :=
  (by decide +kernel : ∀ t : Fin grid4.N, _)

/-- What point t writes back is block t of the feature transform of the arrays the launch found. -/
theorem flushed4 (c : Dev nD) (t : Fin cfg4.N) :
    (dat4 V c).flushed 2 t = ((cfg4.win 2).blk t).view.read (Elt Ideal)
      (Cert.GcnPieces.prod (V c main_v69) (V c main_v71)) := by
  show (cfg4.win 2).cut (grid4.coords t) ((dat4 V c).after 2 t) = _
  rw [after4_2]
  unfold out4_2
  rw [View.canon_unit_zero Cert.GcnPieces.hz2]
  simp only [View.ld_unit_zero (S := S10000x64) Cert.GcnPieces.hz2, View.ld_unit_zero (S := S64x64) Cert.GcnPieces.hz2]
  rw [pay4_eq]
  obtain ⟨e0, e1, e2, e3, e4, e5⟩ := idx4 t
  funext j
  show Cert.GcnPieces.prod (iblk4 V c 0 t) (iblk4 V c 1 t) j
    = Cert.GcnPieces.prod (V c main_v69) (V c main_v71) (((cfg4.win 2).blk t).view.emb j)
  refine Cert.GcnPieces.prod_rows _ _ _ _ j _ (fun k => ?_) (fun k => ?_)
  · show V c main_v69 (((cfg4.win 0).blk t).view.emb (ix2 (j 0) k))
      = V c main_v69 (ix2 ((((cfg4.win 2).blk t).view.emb j) 0) k)
    refine congrArg (V c main_v69) (funext fun a => Fin.ext ?_)
    match a with
    | ⟨0, _⟩ =>
      show win4_0.index t (0 : Fin 2) * 10000 + 1 * (j 0).val = win4_2.index t (0 : Fin 2) * 10000 + 1 * (j 0).val
      omega
    | ⟨1, _⟩ =>
      show win4_0.index t (1 : Fin 2) * 64 + 1 * k.val = k.val
      omega
  · show V c main_v71 (((cfg4.win 1).blk t).view.emb (ix2 k (j 1)))
      = V c main_v71 (ix2 k ((((cfg4.win 2).blk t).view.emb j) 1))
    refine congrArg (V c main_v71) (funext fun a => Fin.ext ?_)
    match a with
    | ⟨0, _⟩ =>
      show win4_1.index t (0 : Fin 2) * 64 + 1 * k.val = k.val
      omega
    | ⟨1, _⟩ =>
      show win4_1.index t (1 : Fin 2) * 64 + 1 * (j 1).val = win4_2.index t (1 : Fin 2) * 64 + 1 * (j 1).val
      omega

/-- An index of the result array is in point t's block iff each coordinate is in the block's range on its axis. -/
theorem mem_blk4 (t : Fin cfg4.N) (i : S100000x64.Idx) :
    i ∈ ((cfg4.win 2).blk t).view.set ↔ ∀ a : Fin 2, win4_2.index t a * S10000x64.size a ≤ (i a).val
      ∧ (i a).val < win4_2.index t a * S10000x64.size a + S10000x64.size a := by
  show i ∈ ((View.whole main_v72).slice (win4_2.rect t)).set ↔ _
  rw [View.set_slice_whole, Rect.mem_set_unit]
  exact Iff.rfl

/-- Every row is in some point's block: row r in block r / 10000. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : grid4.N = 10 := N_4
  have ht : (i 0).val / 10000 < grid4.N := by rw [hN]; omega
  obtain ⟨e0, e1, e2, e3, e4, e5⟩ := idx4 ⟨(i 0).val / 10000, ht⟩
  have e5' : win4_2.index ⟨(i 0).val / 10000, ht⟩ (0 : Fin 2) = (i 0).val / 10000 := e5
  refine ⟨⟨(i 0).val / 10000, ht⟩, flush4_2 _, ?_⟩
  rw [mem_blk4]
  intro a
  match a with
  | ⟨0, _⟩ =>
    show win4_2.index ⟨(i 0).val / 10000, ht⟩ (0 : Fin 2) * 10000 ≤ (i 0).val
      ∧ (i 0).val < win4_2.index ⟨(i 0).val / 10000, ht⟩ (0 : Fin 2) * 10000 + 10000
    omega
  | ⟨1, _⟩ =>
    show win4_2.index ⟨(i 0).val / 10000, ht⟩ (1 : Fin 2) * 64 ≤ (i 1).val
      ∧ (i 1).val < win4_2.index ⟨(i 0).val / 10000, ht⟩ (1 : Fin 2) * 64 + 64
    omega

/-- The result array after the launch: the feature transform of the arrays it found. -/
theorem final4 (c : Dev nD) :
    (dat4 V c).arrAt 2 cfg4.N = Cert.GcnPieces.prod (V c main_v69) (V c main_v71) :=
  (dat4 V c).arrAt_eq_of_cover 2 _ (fun t _ => flushed4 V c t) (cover4)

end Cert.KernelIdeal.Whole

end
-- ==== Proof.Region5.lean ====
/-
  Launch 5: bias, the residual and the rectifier, over ten blocks of ten thousand rows.

  Each grid point loads its block of rows of the own features and of the aggregated messages and the whole bias
  vector, and stores  max (s · x + agg + b, 0)  into its block of rows of the result, the bias recast to one row and
  repeated down the rows. An entry reads its own entry of the two row operands and the bias's entry of its column;
  block t's row p is row 10000·t + p of the array; the ten blocks tile the hundred thousand rows. So the result array
  ends as the update of the whole arrays the launch found.
-/
import proofs.«117175_j71751723647605_1_alg».proof.Proof.Gen.KernelIdeal.Frame
import proofs.«117175_j71751723647605_1_alg».proof.Proof.LibGcnPieces
import Idealize.ShloMosaic.Lib.Pipeline.Value

set_option maxRecDepth 16384

open scoped BigOperators

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The body's stored value: the update of the loaded blocks, the scale the number of the word the body splats. -/
theorem pay5_eq (b : Vec Ideal S64 .f32) (x agg : Vec Ideal S10000x64 .f32) :
    k5_pay1 b x agg = Cert.GcnPieces.update 0x3F800000#32 x agg b := by
  funext j
  obtain ⟨p, q, rfl⟩ : ∃ (p : Fin 10000) (q : Fin 64), j = ix2 p q := ⟨j 0, j 1, eq_ix2 j⟩
  unfold k5_pay1
  simp only [shapeCast_self]
  exact Cert.GcnPieces.tile_update_apply 0x3F800000#32 x agg b shapeCasts_S64_S1x64 broadcasts_S1x64_S10000x64 p q

/-- The index maps over the grid: the two row operands' and the result's blocks move together down the rows, block t
    at block row t; the bias's block stays put. -/
theorem idx5 : ∀ t : Fin cfg5.N, win5_0.index t (0 : Fin 2) = win5_3.index t (0 : Fin 2)
    ∧ win5_0.index t (1 : Fin 2) = 0 ∧ win5_1.index t (0 : Fin 2) = win5_3.index t (0 : Fin 2)
    ∧ win5_1.index t (1 : Fin 2) = 0 ∧ win5_2.index t (0 : Fin 1) = 0
    ∧ win5_3.index t (1 : Fin 2) = 0 ∧ win5_3.index t (0 : Fin 2) = t.val :=
  (by decide +kernel : ∀ t : Fin grid5.N, _)

/-- What point t writes back is block t of the update of the arrays the launch found. -/
theorem flushed5 (c : Dev nD) (t : Fin cfg5.N) :
    (dat5 V c).flushed 3 t = ((cfg5.win 3).blk t).view.read (Elt Ideal)
      (Cert.GcnPieces.update 0x3F800000#32 (V c main_v69) (V c main_v85) (V c main_v87)) := by
  show (cfg5.win 3).cut (grid5.coords t) ((dat5 V c).after 3 t) = _
  rw [after5_3]
  unfold out5_3
  rw [View.canon_unit_zero Cert.GcnPieces.hz2]
  simp only [View.ld_unit_zero (S := S10000x64) Cert.GcnPieces.hz2, View.ld_unit_zero (S := S64) Cert.GcnPieces.hz1]
  rw [pay5_eq]
  obtain ⟨e0, e1, e2, e3, e4, e5, e6⟩ := idx5 t
  funext j
  show Cert.GcnPieces.update 0x3F800000#32 (iblk5 V c 0 t) (iblk5 V c 1 t) (iblk5 V c 2 t) j
    = Cert.GcnPieces.update 0x3F800000#32 (V c main_v69) (V c main_v85) (V c main_v87) (((cfg5.win 3).blk t).view.emb j)
  refine Cert.GcnPieces.update_rows 0x3F800000#32 _ _ _ _ _ _ j _ ?_ ?_ ?_
  · show V c main_v69 (((cfg5.win 0).blk t).view.emb j) = V c main_v69 (((cfg5.win 3).blk t).view.emb j)
    refine congrArg (V c main_v69) (funext fun a => Fin.ext ?_)
    match a with
    | ⟨0, _⟩ =>
      show win5_0.index t (0 : Fin 2) * 10000 + 1 * (j 0).val = win5_3.index t (0 : Fin 2) * 10000 + 1 * (j 0).val
      omega
    | ⟨1, _⟩ =>
      show win5_0.index t (1 : Fin 2) * 64 + 1 * (j 1).val = win5_3.index t (1 : Fin 2) * 64 + 1 * (j 1).val
      omega
  · show V c main_v85 (((cfg5.win 1).blk t).view.emb j) = V c main_v85 (((cfg5.win 3).blk t).view.emb j)
    refine congrArg (V c main_v85) (funext fun a => Fin.ext ?_)
    match a with
    | ⟨0, _⟩ =>
      show win5_1.index t (0 : Fin 2) * 10000 + 1 * (j 0).val = win5_3.index t (0 : Fin 2) * 10000 + 1 * (j 0).val
      omega
    | ⟨1, _⟩ =>
      show win5_1.index t (1 : Fin 2) * 64 + 1 * (j 1).val = win5_3.index t (1 : Fin 2) * 64 + 1 * (j 1).val
      omega
  · show V c main_v87 (((cfg5.win 2).blk t).view.emb (ix1 (j 1)))
      = V c main_v87 (ix1 ((((cfg5.win 3).blk t).view.emb j) 1))
    refine congrArg (V c main_v87) (funext fun a => Fin.ext ?_)
    match a with
    | ⟨0, _⟩ =>
      show win5_2.index t (0 : Fin 1) * 64 + 1 * (j 1).val = win5_3.index t (1 : Fin 2) * 64 + 1 * (j 1).val
      omega

/-- An index of the result array is in point t's block iff each coordinate is in the block's range on its axis. -/
theorem mem_blk5 (t : Fin cfg5.N) (i : S100000x64.Idx) :
    i ∈ ((cfg5.win 3).blk t).view.set ↔ ∀ a : Fin 2, win5_3.index t a * S10000x64.size a ≤ (i a).val
      ∧ (i a).val < win5_3.index t a * S10000x64.size a + S10000x64.size a := by
  show i ∈ ((View.whole main_v88).slice (win5_3.rect t)).set ↔ _
  rw [View.set_slice_whole, Rect.mem_set_unit]
  exact Iff.rfl

/-- Every row is in some point's block: row r in block r / 10000. -/
theorem cover5 (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  have hN : grid5.N = 10 := N_5
  have ht : (i 0).val / 10000 < grid5.N := by rw [hN]; omega
  obtain ⟨e0, e1, e2, e3, e4, e5, e6⟩ := idx5 ⟨(i 0).val / 10000, ht⟩
  have e6' : win5_3.index ⟨(i 0).val / 10000, ht⟩ (0 : Fin 2) = (i 0).val / 10000 := e6
  refine ⟨⟨(i 0).val / 10000, ht⟩, flush5_3 _, ?_⟩
  rw [mem_blk5]
  intro a
  match a with
  | ⟨0, _⟩ =>
    show win5_3.index ⟨(i 0).val / 10000, ht⟩ (0 : Fin 2) * 10000 ≤ (i 0).val
      ∧ (i 0).val < win5_3.index ⟨(i 0).val / 10000, ht⟩ (0 : Fin 2) * 10000 + 10000
    omega
  | ⟨1, _⟩ =>
    show win5_3.index ⟨(i 0).val / 10000, ht⟩ (1 : Fin 2) * 64 ≤ (i 1).val
      ∧ (i 1).val < win5_3.index ⟨(i 0).val / 10000, ht⟩ (1 : Fin 2) * 64 + 64
    omega

/-- The result array after the launch: the update of the arrays it found. -/
theorem final5 (c : Dev nD) :
    (dat5 V c).arrAt 3 cfg5.N
      = Cert.GcnPieces.update 0x3F800000#32 (V c main_v69) (V c main_v85) (V c main_v87) :=
  (dat5 V c).arrAt_eq_of_cover 3 _ (fun t _ => flushed5 V c t) (cover5)

end Cert.KernelIdeal.Whole

end
-- ==== Proof.Region6.lean ====
/-
  Launch 6: the feature transform, over ten blocks of ten thousand rows.

  Each grid point loads its block of rows of the features and the whole weight matrix, and stores the product of the
  two (narrowed to half precision first, which is the identity on exact values) into its block of rows of the
  result. Entry (p, q) of a block's product reads row p of the block only, and block t's row p is row 10000·t + p of
  the array; the ten blocks tile the hundred thousand rows. So the result array ends as the feature transform of the
  whole arrays the launch found.
-/
import proofs.«117175_j71751723647605_1_alg».proof.Proof.Gen.KernelIdeal.Frame
import proofs.«117175_j71751723647605_1_alg».proof.Proof.LibGcnPieces
import Idealize.ShloMosaic.Lib.Pipeline.Value

set_option maxRecDepth 16384

open scoped BigOperators

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The body's stored value at an entry: row p of the loaded features against column q of the loaded weights. -/
theorem pay6_eq (x0 : Vec Ideal S10000x64 .f32) (x1 : Vec Ideal S64x64 .f32) :
    k6_pay1 x0 x1 = Cert.GcnPieces.prod x0 x1 := by
  funext j
  obtain ⟨p, q, rfl⟩ : ∃ (p : Fin 10000) (q : Fin 64), j = ix2 p q := ⟨j 0, j 1, eq_ix2 j⟩
  unfold k6_pay1
  simp only [shapeCast_self]
  exact Cert.GcnPieces.tile_prod_apply dot_S10000x64_S64x64_S10000x64_1_0_0_1_n_n rfl rfl rfl rfl rfl rfl rfl rfl none
    x0 x1 bitsLt_bf16_f32 p q

/-- The index maps over the grid: the features' and the result's blocks move together down the rows, block t at
    block row t; the weights' block stays put. -/
theorem idx6 : ∀ t : Fin cfg6.N, win6_0.index t (0 : Fin 2) = win6_2.index t (0 : Fin 2)
    ∧ win6_0.index t (1 : Fin 2) = 0 ∧ win6_1.index t (0 : Fin 2) = 0 ∧ win6_1.index t (1 : Fin 2) = 0
    ∧ win6_2.index t (1 : Fin 2) = 0 ∧ win6_2.index t (0 : Fin 2) = t.val :=
  (by decide +kernel : ∀ t : Fin grid6.N, _)

/-- What point t writes back is block t of the feature transform of the arrays the launch found. -/
theorem flushed6 (c : Dev nD) (t : Fin cfg6.N) :
    (dat6 V c).flushed 2 t = ((cfg6.win 2).blk t).view.read (Elt Ideal)
      (Cert.GcnPieces.prod (V c main_v88) (V c main_v90)) := by
  show (cfg6.win 2).cut (grid6.coords t) ((dat6 V c).after 2 t) = _
  rw [after6_2]
  unfold out6_2
  rw [View.canon_unit_zero Cert.GcnPieces.hz2]
  simp only [View.ld_unit_zero (S := S10000x64) Cert.GcnPieces.hz2, View.ld_unit_zero (S := S64x64) Cert.GcnPieces.hz2]
  rw [pay6_eq]
  obtain ⟨e0, e1, e2, e3, e4, e5⟩ := idx6 t
  funext j
  show Cert.GcnPieces.prod (iblk6 V c 0 t) (iblk6 V c 1 t) j
    = Cert.GcnPieces.prod (V c main_v88) (V c main_v90) (((cfg6.win 2).blk t).view.emb j)
  refine Cert.GcnPieces.prod_rows _ _ _ _ j _ (fun k => ?_) (fun k => ?_)
  · show V c main_v88 (((cfg6.win 0).blk t).view.emb (ix2 (j 0) k))
      = V c main_v88 (ix2 ((((cfg6.win 2).blk t).view.emb j) 0) k)
    refine congrArg (V c main_v88) (funext fun a => Fin.ext ?_)
    match a with
    | ⟨0, _⟩ =>
      show win6_0.index t (0 : Fin 2) * 10000 + 1 * (j 0).val = win6_2.index t (0 : Fin 2) * 10000 + 1 * (j 0).val
      omega
    | ⟨1, _⟩ =>
      show win6_0.index t (1 : Fin 2) * 64 + 1 * k.val = k.val
      omega
  · show V c main_v90 (((cfg6.win 1).blk t).view.emb (ix2 k (j 1)))
      = V c main_v90 (ix2 k ((((cfg6.win 2).blk t).view.emb j) 1))
    refine congrArg (V c main_v90) (funext fun a => Fin.ext ?_)
    match a with
    | ⟨0, _⟩ =>
      show win6_1.index t (0 : Fin 2) * 64 + 1 * k.val = k.val
      omega
    | ⟨1, _⟩ =>
      show win6_1.index t (1 : Fin 2) * 64 + 1 * (j 1).val = win6_2.index t (1 : Fin 2) * 64 + 1 * (j 1).val
      omega

/-- An index of the result array is in point t's block iff each coordinate is in the block's range on its axis. -/
theorem mem_blk6 (t : Fin cfg6.N) (i : S100000x64.Idx) :
    i ∈ ((cfg6.win 2).blk t).view.set ↔ ∀ a : Fin 2, win6_2.index t a * S10000x64.size a ≤ (i a).val
      ∧ (i a).val < win6_2.index t a * S10000x64.size a + S10000x64.size a := by
  show i ∈ ((View.whole main_v91).slice (win6_2.rect t)).set ↔ _
  rw [View.set_slice_whole, Rect.mem_set_unit]
  exact Iff.rfl

/-- Every row is in some point's block: row r in block r / 10000. -/
theorem cover6 (i : S100000x64.Idx) :
    ∃ t : Fin cfg6.N, (cfg6.win 2).flush t = true ∧ i ∈ ((cfg6.win 2).blk t).view.set := by
  have hi0 : (i 0).val < 100000 := (i 0).isLt
  have hi1 : (i 1).val < 64 := (i 1).isLt
  have hN : grid6.N = 10 := N_6
  have ht : (i 0).val / 10000 < grid6.N := by rw [hN]; omega
  obtain ⟨e0, e1, e2, e3, e4, e5⟩ := idx6 ⟨(i 0).val / 10000, ht⟩
  have e5' : win6_2.index ⟨(i 0).val / 10000, ht⟩ (0 : Fin 2) = (i 0).val / 10000 := e5
  refine ⟨⟨(i 0).val / 10000, ht⟩, flush6_2 _, ?_⟩
  rw [mem_blk6]
  intro a
  match a with
  | ⟨0, _⟩ =>
    show win6_2.index ⟨(i 0).val / 10000, ht⟩ (0 : Fin 2) * 10000 ≤ (i 0).val
      ∧ (i 0).val < win6_2.index ⟨(i 0).val / 10000, ht⟩ (0 : Fin 2) * 10000 + 10000
    omega
  | ⟨1, _⟩ =>
    show win6_2.index ⟨(i 0).val / 10000, ht⟩ (1 : Fin 2) * 64 ≤ (i 1).val
      ∧ (i 1).val < win6_2.index ⟨(i 0).val / 10000, ht⟩ (1 : Fin 2) * 64 + 64
    omega

/-- The result array after the launch: the feature transform of the arrays it found. -/
theorem final6 (c : Dev nD) :
    (dat6 V c).arrAt 2 cfg6.N = Cert.GcnPieces.prod (V c main_v88) (V c main_v90) :=
  (dat6 V c).arrAt_eq_of_cover 2 _ (fun t _ => flushed6 V c t) (cover6)

end Cert.KernelIdeal.Whole

end
-- ==== Proof.Region7.lean ====
/-
  Launch 7: bias, the residual and the rectifier, over ten blocks of ten thousand rows.

  Each grid point loads its block of rows of the own features and of the aggregated messages and the whole bias
  vector, and stores  max (s · x + agg + b, 0)  into its block of rows of the result, the bias recast to one row and
  repeated down the rows. An entry reads its own entry of the two row operands and the bias's entry of its column;
  block t's row p is row 10000·t + p of the array; the ten blocks tile the hundred thousand rows. So the result array
  ends as the update of the whole arrays the launch found.
-/
import proofs.«117175_j71751723647605_1_alg».proof.Proof.Gen.KernelIdeal.Frame
import proofs.«117175_j71751723647605_1_alg».proof.Proof.LibGcnPieces
import Idealize.ShloMosaic.Lib.Pipeline.Value

set_option maxRecDepth 16384

open scoped BigOperators

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The body's stored value: the update of the loaded blocks, the scale the number of the word the body splats. -/
theorem pay7_eq (b : Vec Ideal S64 .f32) (x agg : Vec Ideal S10000x64 .f32) :
    k7_pay1 b x agg = Cert.GcnPieces.update 0x3F800000#32 x agg b := by
  funext j
  obtain ⟨p, q, rfl⟩ : ∃ (p : Fin 10000) (q : Fin 64), j = ix2 p q := ⟨j 0, j 1, eq_ix2 j⟩
  unfold k7_pay1
  simp only [shapeCast_self]
  exact Cert.GcnPieces.tile_update_apply 0x3F800000#32 x agg b shapeCasts_S64_S1x64 broadcasts_S1x64_S10000x64 p q

/-- The index maps over the grid: the two row operands' and the result's blocks move together down the rows, block t
    at block row t; the bias's block stays put. -/
theorem idx7 : ∀ t : Fin cfg7.N, win7_0.index t (0 : Fin 2) = win7_3.index t (0 : Fin 2)
    ∧ win7_0.index t (1 : Fin 2) = 0 ∧ win7_1.index t (0 : Fin 2) = win7_3.index t (0 : Fin 2)
    ∧ win7_1.index t (1 : Fin 2) = 0 ∧ win7_2.index t (0 : Fin 1) = 0
    ∧ win7_3.index t (1 : Fin 2) = 0 ∧ win7_3.index t (0 : Fin 2) = t.val :=
  (by decide +kernel : ∀ t : Fin grid7.N, _)

/-- What point t writes back is block t of the update of the arrays the launch found. -/
theorem flushed7 (c : Dev nD) (t : Fin cfg7.N) :
    (dat7 V c).flushed 3 t = ((cfg7.win 3).blk t).view.read (Elt Ideal)
      (Cert.GcnPieces.update 0x3F800000#32 (V c main_v88) (V c main_v104) (V c main_v106)) := by
  show (cfg7.win 3).cut (grid7.coords t) ((dat7 V c).after 3 t) = _
  rw [after7_3]
  unfold out7_3
  rw [View.canon_unit_zero Cert.GcnPieces.hz2]
  simp only [View.ld_unit_zero (S := S10000x64) Cert.GcnPieces.hz2, View.ld_unit_zero (S := S64) Cert.GcnPieces.hz1]
  rw [pay7_eq]
  obtain ⟨e0, e1, e2, e3, e4, e5, e6⟩ := idx7 t
  funext j
  show Cert.GcnPieces.update 0x3F800000#32 (iblk7 V c 0 t) (iblk7 V c 1 t) (iblk7 V c 2 t) j
    = Cert.GcnPieces.update 0x3F800000#32 (V c main_v88) (V c main_v104) (V c main_v106) (((cfg7.win 3).blk t).view.emb j)
  refine Cert.GcnPieces.update_rows 0x3F800000#32 _ _ _ _ _ _ j _ ?_ ?_ ?_
  · show V c main_v88 (((cfg7.win 0).blk t).view.emb j) = V c main_v88 (((cfg7.win 3).blk t).view.emb j)
    refine congrArg (V c main_v88) (funext fun a => Fin.ext ?_)
    match a with
    | ⟨0, _⟩ =>
      show win7_0.index t (0 : Fin 2) * 10000 + 1 * (j 0).val = win7_3.index t (0 : Fin 2) * 10000 + 1 * (j 0).val
      omega
    | ⟨1, _⟩ =>
      show win7_0.index t (1 : Fin 2) * 64 + 1 * (j 1).val = win7_3.index t (1 : Fin 2) * 64 + 1 * (j 1).val
      omega
  · show V c main_v104 (((cfg7.win 1).blk t).view.emb j) = V c main_v104 (((cfg7.win 3).blk t).view.emb j)
    refine congrArg (V c main_v104) (funext fun a => Fin.ext ?_)
    match a with
    | ⟨0, _⟩ =>
      show win7_1.index t (0 : Fin 2) * 10000 + 1 * (j 0).val = win7_3.index t (0 : Fin 2) * 10000 + 1 * (j 0).val
      omega
    | ⟨1, _⟩ =>
      show win7_1.index t (1 : Fin 2) * 64 + 1 * (j 1).val = win7_3.index t (1 : Fin 2) * 64 + 1 * (j 1).val
      omega
  · show V c main_v106 (((cfg7.win 2).blk t).view.emb (ix1 (j 1)))
      = V c main_v106 (ix1 ((((cfg7.win 3).blk t).view.emb j) 1))
    refine congrArg (V c main_v106) (funext fun a => Fin.ext ?_)
    match a with
    | ⟨0, _⟩ =>
      show win7_2.index t (0 : Fin 1) * 64 + 1 * (j 1).val = win7_3.index t (1 : Fin 2) * 64 + 1 * (j 1).val
      omega

/-- An index of the result array is in point t's block iff each coordinate is in the block's range on its axis. -/
theorem mem_blk7 (t : Fin cfg7.N) (i : S100000x64.Idx) :
    i ∈ ((cfg7.win 3).blk t).view.set ↔ ∀ a : Fin 2, win7_3.index t a * S10000x64.size a ≤ (i a).val
      ∧ (i a).val < win7_3.index t a * S10000x64.size a + S10000x64.size a := by
  show i ∈ ((View.whole main_v107).slice (win7_3.rect t)).set ↔ _
  rw [View.set_slice_whole, Rect.mem_set_unit]
  exact Iff.rfl

/-- Every row is in some point's block: row r in block r / 10000. -/
theorem cover7 (i : S100000x64.Idx) :
    ∃ t : Fin cfg7.N, (cfg7.win 3).flush t = true ∧ i ∈ ((cfg7.win 3).blk t).view.set := by
  have hi0 : (i 0).val < 100000 := (i 0).isLt
  have hi1 : (i 1).val < 64 := (i 1).isLt
  have hN : grid7.N = 10 := N_7
  have ht : (i 0).val / 10000 < grid7.N := by rw [hN]; omega
  obtain ⟨e0, e1, e2, e3, e4, e5, e6⟩ := idx7 ⟨(i 0).val / 10000, ht⟩
  have e6' : win7_3.index ⟨(i 0).val / 10000, ht⟩ (0 : Fin 2) = (i 0).val / 10000 := e6
  refine ⟨⟨(i 0).val / 10000, ht⟩, flush7_3 _, ?_⟩
  rw [mem_blk7]
  intro a
  match a with
  | ⟨0, _⟩ =>
    show win7_3.index ⟨(i 0).val / 10000, ht⟩ (0 : Fin 2) * 10000 ≤ (i 0).val
      ∧ (i 0).val < win7_3.index ⟨(i 0).val / 10000, ht⟩ (0 : Fin 2) * 10000 + 10000
    omega
  | ⟨1, _⟩ =>
    show win7_3.index ⟨(i 0).val / 10000, ht⟩ (1 : Fin 2) * 64 ≤ (i 1).val
      ∧ (i 1).val < win7_3.index ⟨(i 0).val / 10000, ht⟩ (1 : Fin 2) * 64 + 64
    omega

/-- The result array after the launch: the update of the arrays it found. -/
theorem final7 (c : Dev nD) :
    (dat7 V c).arrAt 3 cfg7.N
      = Cert.GcnPieces.update 0x3F800000#32 (V c main_v88) (V c main_v104) (V c main_v106) :=
  (dat7 V c).arrAt_eq_of_cover 3 _ (fun t _ => flushed7 V c t) (cover7)

end Cert.KernelIdeal.Whole

end
-- ==== Proof.Region8.lean ====
/-
  Launch 8: the readout, over ten blocks of ten thousand rows.

  Each grid point loads its block of rows of the last layer's features, the whole readout matrix and the whole bias
  vector, and stores the product (both operands narrowed to half precision first, the identity on exact values) plus
  the bias, recast to one row and repeated down the rows, into its block of rows of the result. Entry (p, q) reads
  row p of the block, column q of the matrix and entry q of the bias; block t's row p is row 10000·t + p of the
  array; the ten blocks tile the hundred thousand rows. So the result array ends as the readout of the whole arrays
  the launch found.
-/
import proofs.«117175_j71751723647605_1_alg».proof.Proof.Gen.KernelIdeal.Frame
import proofs.«117175_j71751723647605_1_alg».proof.Proof.LibGcnPieces
import Idealize.ShloMosaic.Lib.Pipeline.Value

set_option maxRecDepth 16384

open scoped BigOperators

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The body's stored value: the readout of the loaded blocks. -/
theorem pay8_eq (x : Vec Ideal S10000x64 .f32) (w : Vec Ideal S64x3 .f32) (b : Vec Ideal S3 .f32) :
    k8_pay1 x w b = Cert.GcnPieces.readout x w b := by
  funext j
  obtain ⟨p, q, rfl⟩ : ∃ (p : Fin 10000) (q : Fin 3), j = ix2 p q := ⟨j 0, j 1, eq_ix2 j⟩
  unfold k8_pay1
  rw [shapeCast_self]
  exact Cert.GcnPieces.tile_readout_apply dot_S10000x64_S64x3_S10000x3_1_0_0_1_n_n rfl rfl rfl rfl rfl rfl rfl rfl none
    x w b bitsLt_bf16_f32 shapeCasts_S3_S1x3 broadcasts_S1x3_S10000x3 p q

/-- The index maps over the grid: the features' and the result's blocks move together down the rows, block t at
    block row t; the matrix's and the bias's blocks stay put. -/
theorem idx8 : ∀ t : Fin cfg8.N, win8_0.index t (0 : Fin 2) = win8_3.index t (0 : Fin 2)
    ∧ win8_0.index t (1 : Fin 2) = 0 ∧ win8_1.index t (0 : Fin 2) = 0 ∧ win8_1.index t (1 : Fin 2) = 0
    ∧ win8_2.index t (0 : Fin 1) = 0 ∧ win8_3.index t (1 : Fin 2) = 0 ∧ win8_3.index t (0 : Fin 2) = t.val :=
  (by decide +kernel : ∀ t : Fin grid8.N, _)

/-- What point t writes back is block t of the readout of the arrays the launch found. -/
theorem flushed8 (c : Dev nD) (t : Fin cfg8.N) :
    (dat8 V c).flushed 3 t = ((cfg8.win 3).blk t).view.read (Elt Ideal)
      (Cert.GcnPieces.readout (V c main_v107) (V c main_arg4) (V c main_arg5)) := by
  show (cfg8.win 3).cut (grid8.coords t) ((dat8 V c).after 3 t) = _
  rw [after8_3]
  unfold out8_3
  rw [View.canon_unit_zero Cert.GcnPieces.hz2]
  simp only [View.ld_unit_zero (S := S10000x64) Cert.GcnPieces.hz2, View.ld_unit_zero (S := S64x3) Cert.GcnPieces.hz2,
    View.ld_unit_zero (S := S3) Cert.GcnPieces.hz1]
  rw [pay8_eq]
  obtain ⟨e0, e1, e2, e3, e4, e5, e6⟩ := idx8 t
  funext j
  show Cert.GcnPieces.readout (iblk8 V c 0 t) (iblk8 V c 1 t) (iblk8 V c 2 t) j
    = Cert.GcnPieces.readout (V c main_v107) (V c main_arg4) (V c main_arg5) (((cfg8.win 3).blk t).view.emb j)
  refine Cert.GcnPieces.readout_rows _ _ _ _ _ _ j _ (fun k => ?_) (fun k => ?_) ?_
  · show V c main_v107 (((cfg8.win 0).blk t).view.emb (ix2 (j 0) k))
      = V c main_v107 (ix2 ((((cfg8.win 3).blk t).view.emb j) 0) k)
    refine congrArg (V c main_v107) (funext fun a => Fin.ext ?_)
    match a with
    | ⟨0, _⟩ =>
      show win8_0.index t (0 : Fin 2) * 10000 + 1 * (j 0).val = win8_3.index t (0 : Fin 2) * 10000 + 1 * (j 0).val
      omega
    | ⟨1, _⟩ =>
      show win8_0.index t (1 : Fin 2) * 64 + 1 * k.val = k.val
      omega
  · show V c main_arg4 (((cfg8.win 1).blk t).view.emb (ix2 k (j 1)))
      = V c main_arg4 (ix2 k ((((cfg8.win 3).blk t).view.emb j) 1))
    refine congrArg (V c main_arg4) (funext fun a => Fin.ext ?_)
    match a with
    | ⟨0, _⟩ =>
      show win8_1.index t (0 : Fin 2) * 64 + 1 * k.val = k.val
      omega
    | ⟨1, _⟩ =>
      show win8_1.index t (1 : Fin 2) * 3 + 1 * (j 1).val = win8_3.index t (1 : Fin 2) * 3 + 1 * (j 1).val
      omega
  · show V c main_arg5 (((cfg8.win 2).blk t).view.emb (ix1 (j 1)))
      = V c main_arg5 (ix1 ((((cfg8.win 3).blk t).view.emb j) 1))
    refine congrArg (V c main_arg5) (funext fun a => Fin.ext ?_)
    match a with
    | ⟨0, _⟩ =>
      show win8_2.index t (0 : Fin 1) * 3 + 1 * (j 1).val = win8_3.index t (1 : Fin 2) * 3 + 1 * (j 1).val
      omega

/-- An index of the result array is in point t's block iff each coordinate is in the block's range on its axis. -/
theorem mem_blk8 (t : Fin cfg8.N) (i : S100000x3.Idx) :
    i ∈ ((cfg8.win 3).blk t).view.set ↔ ∀ a : Fin 2, win8_3.index t a * S10000x3.size a ≤ (i a).val
      ∧ (i a).val < win8_3.index t a * S10000x3.size a + S10000x3.size a := by
  show i ∈ ((View.whole main_v108).slice (win8_3.rect t)).set ↔ _
  rw [View.set_slice_whole, Rect.mem_set_unit]
  exact Iff.rfl

/-- Every row is in some point's block: row r in block r / 10000. -/
theorem cover8 (i : S100000x3.Idx) :
    ∃ t : Fin cfg8.N, (cfg8.win 3).flush t = true ∧ i ∈ ((cfg8.win 3).blk t).view.set := by
  have hi0 : (i 0).val < 100000 := (i 0).isLt
  have hi1 : (i 1).val < 3 := (i 1).isLt
  have hN : grid8.N = 10 := N_8
  have ht : (i 0).val / 10000 < grid8.N := by rw [hN]; omega
  obtain ⟨e0, e1, e2, e3, e4, e5, e6⟩ := idx8 ⟨(i 0).val / 10000, ht⟩
  have e6' : win8_3.index ⟨(i 0).val / 10000, ht⟩ (0 : Fin 2) = (i 0).val / 10000 := e6
  refine ⟨⟨(i 0).val / 10000, ht⟩, flush8_3 _, ?_⟩
  rw [mem_blk8]
  intro a
  match a with
  | ⟨0, _⟩ =>
    show win8_3.index ⟨(i 0).val / 10000, ht⟩ (0 : Fin 2) * 10000 ≤ (i 0).val
      ∧ (i 0).val < win8_3.index ⟨(i 0).val / 10000, ht⟩ (0 : Fin 2) * 10000 + 10000
    omega
  | ⟨1, _⟩ =>
    show win8_3.index ⟨(i 0).val / 10000, ht⟩ (1 : Fin 2) * 3 ≤ (i 1).val
      ∧ (i 1).val < win8_3.index ⟨(i 0).val / 10000, ht⟩ (1 : Fin 2) * 3 + 3
    omega

/-- The result array after the launch: the readout of the arrays it found. -/
theorem final8 (c : Dev nD) :
    (dat8 V c).arrAt 3 cfg8.N = Cert.GcnPieces.readout (V c main_v107) (V c main_arg4) (V c main_arg5) :=
  (dat8 V c).arrAt_eq_of_cover 3 _ (fun t _ => flushed8 V c t) (cover8)

end Cert.KernelIdeal.Whole

end
-- ==== Proof.KeepGraph.lean ====
/-
  Buffers that outlive the stretch that wrote them: the edges' endpoint vectors and the edge weights.

  The program computes the source vector, the destination vector and the per-edge weights once, before the first
  launch, and every layer's message passing reads them again. No later host operation writes them and no launch has
  them among its arrays, so at every later boundary they hold what they held at the first launch's entry: a host
  stretch leaves a buffer it does not write, and a launch leaves a buffer that is none of its arrays.
-/
import proofs.«117175_j71751723647605_1_alg».proof.Proof.Gen.KernelIdeal.Frame
import Idealize.ShloMosaic.Lib.StableHlo.Run
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg) (c : Dev nD)
theorem keep_v3_4_3 : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem keep_v3_8_4 : W8 m ρ c (Proc.devRef .tc main_v3) = W4 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by
          show StableHlo.after hostOps2 (W6 m ρ c) (Proc.devRef .tc main_v3) = _
          after_results
    _ = W5 m ρ c (Proc.devRef .tc main_v3) := W6_of_ne m ρ c main_v3 (by decide)
    _ = W4 m ρ c (Proc.devRef .tc main_v3) := by
          show StableHlo.after hostOps1 (W4 m ρ c) (Proc.devRef .tc main_v3) = _
          after_results

theorem keep_v3_12_8 : W12 m ρ c (Proc.devRef .tc main_v3) = W8 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := by
          show StableHlo.after hostOps4 (W10 m ρ c) (Proc.devRef .tc main_v3) = _
          after_results
    _ = W9 m ρ c (Proc.devRef .tc main_v3) := W10_of_ne m ρ c main_v3 (by decide)
    _ = W8 m ρ c (Proc.devRef .tc main_v3) := by
          show StableHlo.after hostOps3 (W8 m ρ c) (Proc.devRef .tc main_v3) = _
          after_results

theorem keep_v3_16_12 : W16 m ρ c (Proc.devRef .tc main_v3) = W12 m ρ c (Proc.devRef .tc main_v3) :=
  calc W16 m ρ c (Proc.devRef .tc main_v3)
    _ = W15 m ρ c (Proc.devRef .tc main_v3) := W16_of_ne m ρ c main_v3 (by decide)
    _ = W14 m ρ c (Proc.devRef .tc main_v3) := by
          show StableHlo.after hostOps6 (W14 m ρ c) (Proc.devRef .tc main_v3) = _
          after_results
    _ = W13 m ρ c (Proc.devRef .tc main_v3) := W14_of_ne m ρ c main_v3 (by decide)
    _ = W12 m ρ c (Proc.devRef .tc main_v3) := by
          show StableHlo.after hostOps5 (W12 m ρ c) (Proc.devRef .tc main_v3) = _
          after_results

theorem keep_v6_4_3 : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem keep_v6_8_4 : W8 m ρ c (Proc.devRef .tc main_v6) = W4 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := by
          show StableHlo.after hostOps2 (W6 m ρ c) (Proc.devRef .tc main_v6) = _
          after_results
    _ = W5 m ρ c (Proc.devRef .tc main_v6) := W6_of_ne m ρ c main_v6 (by decide)
    _ = W4 m ρ c (Proc.devRef .tc main_v6) := by
          show StableHlo.after hostOps1 (W4 m ρ c) (Proc.devRef .tc main_v6) = _
          after_results

theorem keep_v6_12_8 : W12 m ρ c (Proc.devRef .tc main_v6) = W8 m ρ c (Proc.devRef .tc main_v6) :=
  calc W12 m ρ c (Proc.devRef .tc main_v6)
    _ = W11 m ρ c (Proc.devRef .tc main_v6) := W12_of_ne m ρ c main_v6 (by decide)
    _ = W10 m ρ c (Proc.devRef .tc main_v6) := by
          show StableHlo.after hostOps4 (W10 m ρ c) (Proc.devRef .tc main_v6) = _
          after_results
    _ = W9 m ρ c (Proc.devRef .tc main_v6) := W10_of_ne m ρ c main_v6 (by decide)
    _ = W8 m ρ c (Proc.devRef .tc main_v6) := by
          show StableHlo.after hostOps3 (W8 m ρ c) (Proc.devRef .tc main_v6) = _
          after_results

theorem keep_v6_16_12 : W16 m ρ c (Proc.devRef .tc main_v6) = W12 m ρ c (Proc.devRef .tc main_v6) :=
  calc W16 m ρ c (Proc.devRef .tc main_v6)
    _ = W15 m ρ c (Proc.devRef .tc main_v6) := W16_of_ne m ρ c main_v6 (by decide)
    _ = W14 m ρ c (Proc.devRef .tc main_v6) := by
          show StableHlo.after hostOps6 (W14 m ρ c) (Proc.devRef .tc main_v6) = _
          after_results
    _ = W13 m ρ c (Proc.devRef .tc main_v6) := W14_of_ne m ρ c main_v6 (by decide)
    _ = W12 m ρ c (Proc.devRef .tc main_v6) := by
          show StableHlo.after hostOps5 (W12 m ρ c) (Proc.devRef .tc main_v6) = _
          after_results

theorem keep_v31_4_3 : W4 m ρ c (Proc.devRef .tc main_v31) = W3 m ρ c (Proc.devRef .tc main_v31) :=
  calc W4 m ρ c (Proc.devRef .tc main_v31)
    _ = W3 m ρ c (Proc.devRef .tc main_v31) := W4_of_ne m ρ c main_v31 (by decide)

theorem keep_v31_8_4 : W8 m ρ c (Proc.devRef .tc main_v31) = W4 m ρ c (Proc.devRef .tc main_v31) :=
  calc W8 m ρ c (Proc.devRef .tc main_v31)
    _ = W7 m ρ c (Proc.devRef .tc main_v31) := W8_of_ne m ρ c main_v31 (by decide)
    _ = W6 m ρ c (Proc.devRef .tc main_v31) := by
          show StableHlo.after hostOps2 (W6 m ρ c) (Proc.devRef .tc main_v31) = _
          after_results
    _ = W5 m ρ c (Proc.devRef .tc main_v31) := W6_of_ne m ρ c main_v31 (by decide)
    _ = W4 m ρ c (Proc.devRef .tc main_v31) := by
          show StableHlo.after hostOps1 (W4 m ρ c) (Proc.devRef .tc main_v31) = _
          after_results

theorem keep_v31_12_8 : W12 m ρ c (Proc.devRef .tc main_v31) = W8 m ρ c (Proc.devRef .tc main_v31) :=
  calc W12 m ρ c (Proc.devRef .tc main_v31)
    _ = W11 m ρ c (Proc.devRef .tc main_v31) := W12_of_ne m ρ c main_v31 (by decide)
    _ = W10 m ρ c (Proc.devRef .tc main_v31) := by
          show StableHlo.after hostOps4 (W10 m ρ c) (Proc.devRef .tc main_v31) = _
          after_results
    _ = W9 m ρ c (Proc.devRef .tc main_v31) := W10_of_ne m ρ c main_v31 (by decide)
    _ = W8 m ρ c (Proc.devRef .tc main_v31) := by
          show StableHlo.after hostOps3 (W8 m ρ c) (Proc.devRef .tc main_v31) = _
          after_results

theorem keep_v31_16_12 : W16 m ρ c (Proc.devRef .tc main_v31) = W12 m ρ c (Proc.devRef .tc main_v31) :=
  calc W16 m ρ c (Proc.devRef .tc main_v31)
    _ = W15 m ρ c (Proc.devRef .tc main_v31) := W16_of_ne m ρ c main_v31 (by decide)
    _ = W14 m ρ c (Proc.devRef .tc main_v31) := by
          show StableHlo.after hostOps6 (W14 m ρ c) (Proc.devRef .tc main_v31) = _
          after_results
    _ = W13 m ρ c (Proc.devRef .tc main_v31) := W14_of_ne m ρ c main_v31 (by decide)
    _ = W12 m ρ c (Proc.devRef .tc main_v31) := by
          show StableHlo.after hostOps5 (W12 m ρ c) (Proc.devRef .tc main_v31) = _
          after_results

end Cert.KernelIdeal.Whole

end
-- ==== Proof.KeepArgs.lean ====
/-
  Buffers that outlive the stretch that wrote them: the argument arrays and each layer's features.

  No host operation writes an argument array, and a launch that has one among its arrays has it as an input, whose
  array its write-backs never touch; so at every boundary an argument holds its launch contents. Each layer's
  features are written once, by that layer's update launch, then read as an input by the next layer's two launches.
-/
import proofs.«117175_j71751723647605_1_alg».proof.Proof.Gen.KernelIdeal.Frame
import Idealize.ShloMosaic.Lib.StableHlo.Run
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg) (c : Dev nD)
theorem keep_arg0_3_0 : W3 m ρ c (Proc.devRef .tc main_arg0) = W0 m ρ c (Proc.devRef .tc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg0_5_3 : W5 m ρ c (Proc.devRef .tc main_arg0) = W3 m ρ c (Proc.devRef .tc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := (W4_arr m ρ c 0).trans (((dat0 (V3 m ρ) c).arrAt_in 0 rfl _).trans (A_eq0 (V3 m ρ) c 0))

theorem keep_arg2_6_0 : W6 m ρ c (Proc.devRef .tc main_arg2) = W0 m ρ c (Proc.devRef .tc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg2_10_6 : W10 m ρ c (Proc.devRef .tc main_arg2) = W6 m ρ c (Proc.devRef .tc main_arg2) :=
  calc W10 m ρ c (Proc.devRef .tc main_arg2)
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg2_14_10 : W14 m ρ c (Proc.devRef .tc main_arg2) = W10 m ρ c (Proc.devRef .tc main_arg2) :=
  calc W14 m ρ c (Proc.devRef .tc main_arg2)
    _ = W13 m ρ c (Proc.devRef .tc main_arg2) := W14_of_ne m ρ c main_arg2 (by decide)
    _ = W12 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg3_4_0 : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg3_8_4 : W8 m ρ c (Proc.devRef .tc main_arg3) = W4 m ρ c (Proc.devRef .tc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg3_12_8 : W12 m ρ c (Proc.devRef .tc main_arg3) = W8 m ρ c (Proc.devRef .tc main_arg3) :=
  calc W12 m ρ c (Proc.devRef .tc main_arg3)
    _ = W11 m ρ c (Proc.devRef .tc main_arg3) := W12_of_ne m ρ c main_arg3 (by decide)
    _ = W10 m ρ c (Proc.devRef .tc main_arg3) := StableHlo.after_of_forall_not_mem (b := Proc.devRef .tc main_arg3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg3) := W10_of_ne m ρ c main_arg3 (by decide)
    _ = W8 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg3_16_12 : W16 m ρ c (Proc.devRef .tc main_arg3) = W12 m ρ c (Proc.devRef .tc main_arg3) :=
  calc W16 m ρ c (Proc.devRef .tc main_arg3)
    _ = W15 m ρ c (Proc.devRef .tc main_arg3) := W16_of_ne m ρ c main_arg3 (by decide)
    _ = W14 m ρ c (Proc.devRef .tc main_arg3) := StableHlo.after_of_forall_not_mem (b := Proc.devRef .tc main_arg3) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg3) := W14_of_ne m ρ c main_arg3 (by decide)
    _ = W12 m ρ c (Proc.devRef .tc main_arg3) := StableHlo.after_of_forall_not_mem (b := Proc.devRef .tc main_arg3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg4_18_0 : W18 m ρ c (Proc.devRef .tc main_arg4) = W0 m ρ c (Proc.devRef .tc main_arg4) :=
  calc W18 m ρ c (Proc.devRef .tc main_arg4)
    _ = W17 m ρ c (Proc.devRef .tc main_arg4) := W18_of_ne m ρ c main_arg4 (by decide)
    _ = W16 m ρ c (Proc.devRef .tc main_arg4) := StableHlo.after_of_forall_not_mem (b := Proc.devRef .tc main_arg4) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg4) := W16_of_ne m ρ c main_arg4 (by decide)
    _ = W14 m ρ c (Proc.devRef .tc main_arg4) := StableHlo.after_of_forall_not_mem (b := Proc.devRef .tc main_arg4) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg4) := W14_of_ne m ρ c main_arg4 (by decide)
    _ = W12 m ρ c (Proc.devRef .tc main_arg4) := StableHlo.after_of_forall_not_mem (b := Proc.devRef .tc main_arg4) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg4) := W12_of_ne m ρ c main_arg4 (by decide)
    _ = W10 m ρ c (Proc.devRef .tc main_arg4) := StableHlo.after_of_forall_not_mem (b := Proc.devRef .tc main_arg4) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg4) := W10_of_ne m ρ c main_arg4 (by decide)
    _ = W8 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg4) := W8_of_ne m ρ c main_arg4 (by decide)
    _ = W6 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg5_18_0 : W18 m ρ c (Proc.devRef .tc main_arg5) = W0 m ρ c (Proc.devRef .tc main_arg5) :=
  calc W18 m ρ c (Proc.devRef .tc main_arg5)
    _ = W17 m ρ c (Proc.devRef .tc main_arg5) := W18_of_ne m ρ c main_arg5 (by decide)
    _ = W16 m ρ c (Proc.devRef .tc main_arg5) := StableHlo.after_of_forall_not_mem (b := Proc.devRef .tc main_arg5) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg5) := W16_of_ne m ρ c main_arg5 (by decide)
    _ = W14 m ρ c (Proc.devRef .tc main_arg5) := StableHlo.after_of_forall_not_mem (b := Proc.devRef .tc main_arg5) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg5) := W14_of_ne m ρ c main_arg5 (by decide)
    _ = W12 m ρ c (Proc.devRef .tc main_arg5) := StableHlo.after_of_forall_not_mem (b := Proc.devRef .tc main_arg5) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg5) := W12_of_ne m ρ c main_arg5 (by decide)
    _ = W10 m ρ c (Proc.devRef .tc main_arg5) := StableHlo.after_of_forall_not_mem (b := Proc.devRef .tc main_arg5) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg5) := W10_of_ne m ρ c main_arg5 (by decide)
    _ = W8 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v50_7_6 : W7 m ρ c (Proc.devRef .tc main_v50) = W6 m ρ c (Proc.devRef .tc main_v50) :=
  calc W7 m ρ c (Proc.devRef .tc main_v50)
    _ = W6 m ρ c (Proc.devRef .tc main_v50) := StableHlo.after_of_forall_not_mem (b := Proc.devRef .tc main_v50) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v50_9_7 : W9 m ρ c (Proc.devRef .tc main_v50) = W7 m ρ c (Proc.devRef .tc main_v50) :=
  calc W9 m ρ c (Proc.devRef .tc main_v50)
    _ = W8 m ρ c (Proc.devRef .tc main_v50) := StableHlo.after_of_forall_not_mem (b := Proc.devRef .tc main_v50) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v50) := (W8_arr m ρ c 0).trans (((dat2 (V7 m ρ) c).arrAt_in 0 rfl _).trans (A_eq2 (V7 m ρ) c 0))

theorem keep_v69_11_10 : W11 m ρ c (Proc.devRef .tc main_v69) = W10 m ρ c (Proc.devRef .tc main_v69) :=
  calc W11 m ρ c (Proc.devRef .tc main_v69)
    _ = W10 m ρ c (Proc.devRef .tc main_v69) := StableHlo.after_of_forall_not_mem (b := Proc.devRef .tc main_v69) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v69_13_11 : W13 m ρ c (Proc.devRef .tc main_v69) = W11 m ρ c (Proc.devRef .tc main_v69) :=
  calc W13 m ρ c (Proc.devRef .tc main_v69)
    _ = W12 m ρ c (Proc.devRef .tc main_v69) := StableHlo.after_of_forall_not_mem (b := Proc.devRef .tc main_v69) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v69) := (W12_arr m ρ c 0).trans (((dat4 (V11 m ρ) c).arrAt_in 0 rfl _).trans (A_eq4 (V11 m ρ) c 0))

theorem keep_v88_15_14 : W15 m ρ c (Proc.devRef .tc main_v88) = W14 m ρ c (Proc.devRef .tc main_v88) :=
  calc W15 m ρ c (Proc.devRef .tc main_v88)
    _ = W14 m ρ c (Proc.devRef .tc main_v88) := StableHlo.after_of_forall_not_mem (b := Proc.devRef .tc main_v88) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v88_17_15 : W17 m ρ c (Proc.devRef .tc main_v88) = W15 m ρ c (Proc.devRef .tc main_v88) :=
  calc W17 m ρ c (Proc.devRef .tc main_v88)
    _ = W16 m ρ c (Proc.devRef .tc main_v88) := StableHlo.after_of_forall_not_mem (b := Proc.devRef .tc main_v88) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v88) := (W16_arr m ρ c 0).trans (((dat6 (V15 m ρ) c).arrAt_in 0 rfl _).trans (A_eq6 (V15 m ρ) c 0))

end Cert.KernelIdeal.Whole

end
-- ==== Proof.RefStages.lean ====
/-
  The reference program, layer by layer.

  The reference's run is a line of host operations; read one operation at a time, each value is a function of the
  arguments it depends on. Grouped by what they compute, the operations of one layer are: a general product (the
  feature transform); the message passing — take the rows of the transformed features at the edges' sources (an index
  below zero wrapped by the node count), scale each by its edge's weight, add each into its edge's destination row —;
  and the bias, the residual and the rectifier (the update). The message passing is the same line of operations in
  every layer and in both programs: it is named here as one function of the transformed features, the edges' two
  endpoint vectors and the edge weights, and never opened. The dense operations are the pieces stated entry by entry.
-/
import proofs.«117175_j71751723647605_1_alg».proof.Defs
import proofs.«117175_j71751723647605_1_alg».proof.Proof.RefRead
import proofs.«117175_j71751723647605_1_alg».proof.Proof.LibGcnPieces

noncomputable section

namespace Cert.ReferenceIdeal.RefValue

open Cert.ReferenceIdeal Cert.ReferenceIdeal.Gen Cert.ReferenceIdeal.ReadP Cert.GcnPieces
open Idealize.ShloMosaic Idealize.ShloMosaic.TcCoe Idealize.SL.Sem

section Generic

variable {F : FTy → Type} [FloatOps F]

/-- The message passing of one layer: the rows of `h` at the sources (a negative index wrapped by the node count),
    each scaled by its edge's weight, added into the rows at the destinations, from the zero array. -/
def passMessages (h : (⟨S100000x64, .f32⟩ : BufTy).Contents (Elt F)) (src dst : (⟨S1700000, .i32⟩ : BufTy).Contents (Elt F))
    (nrm : (⟨S1700000, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 dst)
    (mulf
      (Host.gather gather_S100000x64_S1700000x1_S1700000x64_1_0_n_n_0_1_164 h
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32))) src)))
      (broadcastInDim S1700000x64 ![0, 1] bcast_S1700000x1_S1700000x64_0_1
        (broadcastInDim S1700000x1 ![0] bcast_S1700000_S1700000x1_0 nrm)))

variable (x0 : (⟨S100000x64, .f32⟩ : BufTy).Contents (Elt F)) (x1 : (⟨S2x1600000, .i32⟩ : BufTy).Contents (Elt F)) (x2 : (⟨S4x64x64, .f32⟩ : BufTy).Contents (Elt F))
  (x3 : (⟨S4x64, .f32⟩ : BufTy).Contents (Elt F))

/-- The four layers' aggregates are the message passing of their transformed features. -/
theorem agg1_eq : val_main_v49 (F := F) x0 x1 x2
    = passMessages (val_main_v36 (F := F) x0 x2) (val_main_v3 (F := F) x1) (val_main_v6 (F := F) x1) (val_main_v31 (F := F) x1) := rfl
theorem agg2_eq : val_main_v71 (F := F) x0 x1 x2 x3
    = passMessages (val_main_v58 (F := F) x0 x1 x2 x3) (val_main_v3 (F := F) x1) (val_main_v6 (F := F) x1) (val_main_v31 (F := F) x1) := rfl
theorem agg3_eq : val_main_v94 (F := F) x0 x1 x2 x3
    = passMessages (val_main_v81 (F := F) x0 x1 x2 x3) (val_main_v3 (F := F) x1) (val_main_v6 (F := F) x1) (val_main_v31 (F := F) x1) := rfl
theorem agg4_eq : val_main_v117 (F := F) x0 x1 x2 x3
    = passMessages (val_main_v104 (F := F) x0 x1 x2 x3) (val_main_v3 (F := F) x1) (val_main_v6 (F := F) x1) (val_main_v31 (F := F) x1) := rfl

end Generic

variable (x0 : (⟨S100000x64, .f32⟩ : BufTy).Contents (Elt Ideal)) (x1 : (⟨S2x1600000, .i32⟩ : BufTy).Contents (Elt Ideal)) (x2 : (⟨S4x64x64, .f32⟩ : BufTy).Contents (Elt Ideal))
  (x3 : (⟨S4x64, .f32⟩ : BufTy).Contents (Elt Ideal)) (x4 : (⟨S64x3, .f32⟩ : BufTy).Contents (Elt Ideal)) (x5 : (⟨S3, .f32⟩ : BufTy).Contents (Elt Ideal))

/-- The four feature transforms. -/
theorem lin1_eq : val_main_v36 (F := Ideal) x0 x2 = prod x0 (val_main_v33 (F := Ideal) x2) := by
  unfold val_main_v36
  exact host_prod dot_S100000x64_S64x64_S100000x64_1_0_0_1_n_n rfl rfl rfl rfl rfl rfl rfl rfl none _ _
theorem lin2_eq : val_main_v58 (F := Ideal) x0 x1 x2 x3
    = prod (val_main_v53 (F := Ideal) x0 x1 x2 x3) (val_main_v55 (F := Ideal) x2) := by
  unfold val_main_v58
  exact host_prod dot_S100000x64_S64x64_S100000x64_1_0_0_1_n_n rfl rfl rfl rfl rfl rfl rfl rfl none _ _
theorem lin3_eq : val_main_v81 (F := Ideal) x0 x1 x2 x3
    = prod (val_main_v76 (F := Ideal) x0 x1 x2 x3) (val_main_v78 (F := Ideal) x2) := by
  unfold val_main_v81
  exact host_prod dot_S100000x64_S64x64_S100000x64_1_0_0_1_n_n rfl rfl rfl rfl rfl rfl rfl rfl none _ _
theorem lin4_eq : val_main_v104 (F := Ideal) x0 x1 x2 x3
    = prod (val_main_v99 (F := Ideal) x0 x1 x2 x3) (val_main_v101 (F := Ideal) x2) := by
  unfold val_main_v104
  exact host_prod dot_S100000x64_S64x64_S100000x64_1_0_0_1_n_n rfl rfl rfl rfl rfl rfl rfl rfl none _ _

/-- The first layer's update: no residual, which is the update with the zero scale of any own features. -/
theorem upd1_eq : val_main_v53 (F := Ideal) x0 x1 x2 x3
    = update 0x00000000#32 x0 (val_main_v49 (F := Ideal) x0 x1 x2) (val_main_v35 (F := Ideal) x3) := by
  unfold val_main_v53 val_main_v52 val_main_v51 val_main_v50 val_main_call1_v0 val_main_call1_cst
  exact host_update_zero x0 _ _ bcast_S64_S1x64_1 bcast_S1x64_S100000x64_0_1 ![] bcast_S_S100000x64

/-- The later layers' updates: the previous layer's features added to the aggregate plus the bias. -/
theorem upd2_eq : val_main_v76 (F := Ideal) x0 x1 x2 x3
    = update 0x3F800000#32 (val_main_v53 (F := Ideal) x0 x1 x2 x3) (val_main_v71 (F := Ideal) x0 x1 x2 x3)
        (val_main_v57 (F := Ideal) x3) := by
  unfold val_main_v76 val_main_v75 val_main_v74 val_main_v73 val_main_v72 val_main_call2_v0 val_main_call2_cst
  exact host_update_one _ _ _ bcast_S64_S1x64_1 bcast_S1x64_S100000x64_0_1 ![] bcast_S_S100000x64
theorem upd3_eq : val_main_v99 (F := Ideal) x0 x1 x2 x3
    = update 0x3F800000#32 (val_main_v76 (F := Ideal) x0 x1 x2 x3) (val_main_v94 (F := Ideal) x0 x1 x2 x3)
        (val_main_v80 (F := Ideal) x3) := by
  unfold val_main_v99 val_main_v98 val_main_v97 val_main_v96 val_main_v95 val_main_call3_v0 val_main_call3_cst
  exact host_update_one _ _ _ bcast_S64_S1x64_1 bcast_S1x64_S100000x64_0_1 ![] bcast_S_S100000x64
theorem upd4_eq : val_main_v122 (F := Ideal) x0 x1 x2 x3
    = update 0x3F800000#32 (val_main_v99 (F := Ideal) x0 x1 x2 x3) (val_main_v117 (F := Ideal) x0 x1 x2 x3)
        (val_main_v103 (F := Ideal) x3) := by
  unfold val_main_v122 val_main_v121 val_main_v120 val_main_v119 val_main_v118 val_main_call4_v0 val_main_call4_cst
  exact host_update_one _ _ _ bcast_S64_S1x64_1 bcast_S1x64_S100000x64_0_1 ![] bcast_S_S100000x64

/-- The readout. -/
theorem out_eq : val_main_v126 (F := Ideal) x0 x1 x2 x3 x4 x5
    = readout (val_main_v122 (F := Ideal) x0 x1 x2 x3) x4 x5 := by
  unfold val_main_v126 val_main_v125 val_main_v124 val_main_v123
  exact host_readout dot_S100000x64_S64x3_S100000x3_1_0_0_1_n_n rfl rfl rfl rfl rfl rfl rfl rfl none _ _ _
    bcast_S3_S1x3_1 bcast_S1x3_S100000x3_0_1

end Cert.ReferenceIdeal.RefValue

end
-- ==== Proof.KernelStages.lean ====
/-
  The idealized kernel's buffers, boundary by boundary, as the reference's stages of the same arguments.

  The kernel's program and the reference compute the same network. Before the first launch both build the graph (the
  edges' endpoint vectors with the self loops appended, the degrees, the per-edge weights) by the same line of host
  operations. Then, layer by layer: the kernel's first launch of a layer leaves the feature transform of the arrays
  it found, which is the reference's general product; the host stretch after it is the same message passing in both
  programs, applied to equal features and to the same graph; the layer's second launch leaves the update of the
  arrays it found, which is the reference's bias, residual and rectifier — in the first layer the kernel multiplies the
  own features by zero where the reference adds no residual, and zero times any extended real is zero; in the later
  layers the kernel adds the bias last where the reference adds it to the aggregate first, and addition of extended
  reals is associative. The last launch leaves the readout, which is the reference's product plus bias.
  Each statement below says that one buffer, at one boundary of the kernel's run, holds one stage of the reference
  applied to the kernel's own argument arrays.
-/
import proofs.«117175_j71751723647605_1_alg».proof.Proof.Region0
import proofs.«117175_j71751723647605_1_alg».proof.Proof.Region1
import proofs.«117175_j71751723647605_1_alg».proof.Proof.Region2
import proofs.«117175_j71751723647605_1_alg».proof.Proof.Region3
import proofs.«117175_j71751723647605_1_alg».proof.Proof.Region4
import proofs.«117175_j71751723647605_1_alg».proof.Proof.Region5
import proofs.«117175_j71751723647605_1_alg».proof.Proof.Region6
import proofs.«117175_j71751723647605_1_alg».proof.Proof.Region7
import proofs.«117175_j71751723647605_1_alg».proof.Proof.Region8
import proofs.«117175_j71751723647605_1_alg».proof.Proof.KeepGraph
import proofs.«117175_j71751723647605_1_alg».proof.Proof.KeepArgs
import proofs.«117175_j71751723647605_1_alg».proof.Proof.RefStages
import Idealize.ShloMosaic.Lib.StableHlo.Run

set_option maxRecDepth 16384

noncomputable section

namespace Cert.KernelIdeal.Whole

open Cert.KernelIdeal Cert.KernelIdeal.Gen
open Cert.ReferenceIdeal.ReadP Cert.ReferenceIdeal.RefValue Cert.GcnPieces
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-- The kernel's six argument arrays as launched, typed as the reference's stages take them. -/
abbrev A0 : (⟨Cert.ReferenceIdeal.S100000x64, .f32⟩ : BufTy).Contents (Elt Ideal) := m ((c.tc : Thread nD τ).loc main_arg0)
abbrev A1 : (⟨Cert.ReferenceIdeal.S2x1600000, .i32⟩ : BufTy).Contents (Elt Ideal) := m ((c.tc : Thread nD τ).loc main_arg1)
abbrev A2 : (⟨Cert.ReferenceIdeal.S4x64x64, .f32⟩ : BufTy).Contents (Elt Ideal) := m ((c.tc : Thread nD τ).loc main_arg2)
abbrev A3 : (⟨Cert.ReferenceIdeal.S4x64, .f32⟩ : BufTy).Contents (Elt Ideal) := m ((c.tc : Thread nD τ).loc main_arg3)
abbrev A4 : (⟨Cert.ReferenceIdeal.S64x3, .f32⟩ : BufTy).Contents (Elt Ideal) := m ((c.tc : Thread nD τ).loc main_arg4)
abbrev A5 : (⟨Cert.ReferenceIdeal.S3, .f32⟩ : BufTy).Contents (Elt Ideal) := m ((c.tc : Thread nD τ).loc main_arg5)

/-! ## Before the first launch: the graph, and the first layer's weights

The graph is built in three stretches: the endpoint vectors, the degrees and their guarded reciprocal square roots'
two operands; the selection between them; then the two gathers of the selected values at the endpoints and their
product, the per-edge weights. Each stretch is read against the reference's stages of the same names, the earlier
stretches' values entering as already identified. -/

theorem keep_v3_2_1 : W2 m ρ c (Proc.devRef .tc main_v3) = W1 m ρ c (Proc.devRef .tc main_v3) :=
  calc W2 m ρ c (Proc.devRef .tc main_v3)
    _ = W1 m ρ c (Proc.devRef .tc main_v3) := StableHlo.after_of_forall_not_mem (b := Proc.devRef .tc main_v3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v3_3_2 : W3 m ρ c (Proc.devRef .tc main_v3) = W2 m ρ c (Proc.devRef .tc main_v3) :=
  calc W3 m ρ c (Proc.devRef .tc main_v3)
    _ = W2 m ρ c (Proc.devRef .tc main_v3) := StableHlo.after_of_forall_not_mem (b := Proc.devRef .tc main_v3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v6_2_1 : W2 m ρ c (Proc.devRef .tc main_v6) = W1 m ρ c (Proc.devRef .tc main_v6) :=
  calc W2 m ρ c (Proc.devRef .tc main_v6)
    _ = W1 m ρ c (Proc.devRef .tc main_v6) := StableHlo.after_of_forall_not_mem (b := Proc.devRef .tc main_v6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v6_3_2 : W3 m ρ c (Proc.devRef .tc main_v6) = W2 m ρ c (Proc.devRef .tc main_v6) :=
  calc W3 m ρ c (Proc.devRef .tc main_v6)
    _ = W2 m ρ c (Proc.devRef .tc main_v6) := StableHlo.after_of_forall_not_mem (b := Proc.devRef .tc main_v6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 2000000 in
theorem at1_src : W1 m ρ c (Proc.devRef .tc main_v3) = val_main_v3 (F := Ideal) (A1 m c) := by
  show StableHlo.after hostOps0 (W0 m ρ c) (Proc.devRef .tc main_v3) = _
  after_results
  rfl

set_option maxHeartbeats 2000000 in
theorem at1_dst : W1 m ρ c (Proc.devRef .tc main_v6) = val_main_v6 (F := Ideal) (A1 m c) := by
  show StableHlo.after hostOps0 (W0 m ρ c) (Proc.devRef .tc main_v6) = _
  after_results
  rfl

set_option maxHeartbeats 2000000 in
theorem at1_pos : W1 m ρ c (Proc.devRef .tc main_v12) = val_main_v12 (F := Ideal) (A1 m c) := by
  show StableHlo.after hostOps0 (W0 m ρ c) (Proc.devRef .tc main_v12) = _
  after_results
  rfl

set_option maxHeartbeats 2000000 in
theorem at1_rs : W1 m ρ c (Proc.devRef .tc main_v15) = val_main_v15 (F := Ideal) (A1 m c) := by
  show StableHlo.after hostOps0 (W0 m ρ c) (Proc.devRef .tc main_v15) = _
  after_results
  rfl

theorem at1_zero : W1 m ρ c (Proc.devRef .tc main_cst_3) = val_main_cst_3 (F := Ideal) := by
  show StableHlo.after hostOps0 (W0 m ρ c) (Proc.devRef .tc main_cst_3) = _
  after_results
  rfl

/-- The inlined selection's typed references carry the types their buffers have: moving contents between the two
    spellings of one type is the identity. -/
theorem tb_c0 (v : (⟨S_, .f32⟩ : BufTy).Contents (Elt Ideal)) :
    (StableHlo.TRef.of (T := ⟨S_, .f32⟩) main_call0_v0).toBuf v = v := cast_eq _ v
theorem tb_c1 (v : (⟨S100000, .f32⟩ : BufTy).Contents (Elt Ideal)) :
    (StableHlo.TRef.of (T := ⟨S100000, .f32⟩) main_call0_v1).toBuf v = v := cast_eq _ v
theorem tb_v16 (v : (⟨S100000, .f32⟩ : BufTy).Contents (Elt Ideal)) :
    (StableHlo.TRef.of (T := ⟨S100000, .f32⟩) main_v16).toBuf v = v := cast_eq _ v
theorem ob_z (v : main_cst_3.ty.Contents (Elt Ideal)) :
    (StableHlo.TRef.of (T := ⟨S_, .f32⟩) main_cst_3).ofBuf v = v := cast_eq _ v
theorem ob_c0 (v : main_call0_v0.ty.Contents (Elt Ideal)) :
    (StableHlo.TRef.of (T := ⟨S_, .f32⟩) main_call0_v0).ofBuf v = v := cast_eq _ v
theorem ob_c1 (v : main_call0_v1.ty.Contents (Elt Ideal)) :
    (StableHlo.TRef.of (T := ⟨S100000, .f32⟩) main_call0_v1).ofBuf v = v := cast_eq _ v
theorem ob_v12 (v : main_v12.ty.Contents (Elt Ideal)) :
    (StableHlo.TRef.of (T := ⟨S100000, .i1⟩) main_v12).ofBuf v = v := cast_eq _ v
theorem ob_v15 (v : main_v15.ty.Contents (Elt Ideal)) :
    (StableHlo.TRef.of (T := ⟨S100000, .f32⟩) main_v15).ofBuf v = v := cast_eq _ v

theorem at2_dinv : W2 m ρ c (Proc.devRef .tc main_v16) = val_main_v16 (F := Ideal) (A1 m c) := by
  have h12 := at1_pos m ρ c
  have h15 := at1_rs m ρ c
  have h0 := at1_zero m ρ c
  show StableHlo.after hostOps0_1 (W1 m ρ c) (Proc.devRef .tc main_v16) = _
  generalize W1 m ρ c = V1 at h12 h15 h0 ⊢
  after_results_simp
  rw [h12, h15, h0]
  simp only [tb_c0, tb_c1, tb_v16, ob_z, ob_c0, ob_c1, ob_v12, ob_v15]
  rfl

theorem at3_src : W3 m ρ c (Proc.devRef .tc main_v3) = val_main_v3 (F := Ideal) (A1 m c) :=
  (keep_v3_3_2 m ρ c).trans ((keep_v3_2_1 m ρ c).trans (at1_src m ρ c))

theorem at3_dst : W3 m ρ c (Proc.devRef .tc main_v6) = val_main_v6 (F := Ideal) (A1 m c) :=
  (keep_v6_3_2 m ρ c).trans ((keep_v6_2_1 m ρ c).trans (at1_dst m ρ c))

set_option maxHeartbeats 2000000 in
theorem at3_nrm : W3 m ρ c (Proc.devRef .tc main_v31) = val_main_v31 (F := Ideal) (A1 m c) := by
  have h16 := at2_dinv m ρ c
  have hs : W2 m ρ c (Proc.devRef .tc main_v3) = val_main_v3 (F := Ideal) (A1 m c) := (keep_v3_2_1 m ρ c).trans (at1_src m ρ c)
  have hd : W2 m ρ c (Proc.devRef .tc main_v6) = val_main_v6 (F := Ideal) (A1 m c) := (keep_v6_2_1 m ρ c).trans (at1_dst m ρ c)
  show StableHlo.after hostOps0_2 (W2 m ρ c) (Proc.devRef .tc main_v31) = _
  generalize W2 m ρ c = V2 at h16 hs hd ⊢
  after_results_simp
  rw [h16, hs, hd]
  rfl

theorem at3_w1 : W3 m ρ c (Proc.devRef .tc main_v33) = val_main_v33 (F := Ideal) (A2 m c) := by
  show StableHlo.after hostOps0_2 (StableHlo.after hostOps0_1 (StableHlo.after hostOps0 (W0 m ρ c))) (Proc.devRef .tc main_v33) = _
  after_results
  rfl

theorem at4_a3 : W4 m ρ c (Proc.devRef .tc main_arg3) = A3 m c := keep_arg3_4_0 m ρ c
theorem at6_a2 : W6 m ρ c (Proc.devRef .tc main_arg2) = A2 m c := keep_arg2_6_0 m ρ c
theorem at18_a4 : W18 m ρ c (Proc.devRef .tc main_arg4) = A4 m c := keep_arg4_18_0 m ρ c
theorem at18_a5 : W18 m ρ c (Proc.devRef .tc main_arg5) = A5 m c := keep_arg5_18_0 m ρ c

theorem at3_x0 : W3 m ρ c (Proc.devRef .tc main_arg0) = A0 m c := keep_arg0_3_0 m ρ c

/-! ## Layer 1 -/

theorem at4_h : W4 m ρ c (Proc.devRef .tc main_v34) = val_main_v36 (F := Ideal) (A0 m c) (A2 m c) := by
  rw [lin1_eq]
  refine ((W4_arr m ρ c 2).trans (final0 (V3 m ρ) c)).trans ?_
  show prod (A := 100000) (K := 64) (B := 64) (W3 m ρ c (Proc.devRef .tc main_arg0)) (W3 m ρ c (Proc.devRef .tc main_v33)) = _
  rw [at3_x0, at3_w1]

theorem at5_agg : W5 m ρ c (Proc.devRef .tc main_v47) = val_main_v49 (F := Ideal) (A0 m c) (A1 m c) (A2 m c) := by
  rw [agg1_eq]
  show StableHlo.after hostOps1 (W4 m ρ c) (Proc.devRef .tc main_v47) = _
  after_results_simp
  rw [at4_h, keep_v3_4_3, at3_src, keep_v6_4_3, at3_dst, keep_v31_4_3, at3_nrm]
  rfl

theorem at5_b : W5 m ρ c (Proc.devRef .tc main_v49) = val_main_v35 (F := Ideal) (A3 m c) := by
  show StableHlo.after hostOps1 (W4 m ρ c) (Proc.devRef .tc main_v49) = _
  after_results
  rw [at4_a3]
  rfl

theorem at6_x : W6 m ρ c (Proc.devRef .tc main_v50) = val_main_v53 (F := Ideal) (A0 m c) (A1 m c) (A2 m c) (A3 m c) := by
  rw [upd1_eq]
  refine ((W6_arr m ρ c 3).trans (final1 (V5 m ρ) c)).trans ?_
  show update (A := 100000) (B := 64) 0x00000000#32 (W5 m ρ c (Proc.devRef .tc main_arg0)) (W5 m ρ c (Proc.devRef .tc main_v47)) (W5 m ρ c (Proc.devRef .tc main_v49)) = _
  rw [keep_arg0_5_3, at3_x0, at5_agg, at5_b]

/-! ## Layer 2 -/

theorem at7_w : W7 m ρ c (Proc.devRef .tc main_v52) = val_main_v55 (F := Ideal) (A2 m c) := by
  show StableHlo.after hostOps2 (W6 m ρ c) (Proc.devRef .tc main_v52) = _
  after_results
  rw [at6_a2]
  rfl

theorem at8_h : W8 m ρ c (Proc.devRef .tc main_v53) = val_main_v58 (F := Ideal) (A0 m c) (A1 m c) (A2 m c) (A3 m c) := by
  rw [lin2_eq]
  refine ((W8_arr m ρ c 2).trans (final2 (V7 m ρ) c)).trans ?_
  show prod (A := 100000) (K := 64) (B := 64) (W7 m ρ c (Proc.devRef .tc main_v50)) (W7 m ρ c (Proc.devRef .tc main_v52)) = _
  rw [keep_v50_7_6, at6_x, at7_w]

theorem at9_agg : W9 m ρ c (Proc.devRef .tc main_v66) = val_main_v71 (F := Ideal) (A0 m c) (A1 m c) (A2 m c) (A3 m c) := by
  rw [agg2_eq]
  show StableHlo.after hostOps3 (W8 m ρ c) (Proc.devRef .tc main_v66) = _
  after_results_simp
  rw [at8_h, keep_v3_8_4, keep_v3_4_3, at3_src, keep_v6_8_4, keep_v6_4_3, at3_dst, keep_v31_8_4, keep_v31_4_3, at3_nrm]
  rfl

theorem at9_b : W9 m ρ c (Proc.devRef .tc main_v68) = val_main_v57 (F := Ideal) (A3 m c) := by
  show StableHlo.after hostOps3 (W8 m ρ c) (Proc.devRef .tc main_v68) = _
  after_results
  rw [keep_arg3_8_4, at4_a3]
  rfl

theorem at10_x : W10 m ρ c (Proc.devRef .tc main_v69) = val_main_v76 (F := Ideal) (A0 m c) (A1 m c) (A2 m c) (A3 m c) := by
  rw [upd2_eq]
  refine ((W10_arr m ρ c 3).trans (final3 (V9 m ρ) c)).trans ?_
  show update (A := 100000) (B := 64) 0x3F800000#32 (W9 m ρ c (Proc.devRef .tc main_v50)) (W9 m ρ c (Proc.devRef .tc main_v66)) (W9 m ρ c (Proc.devRef .tc main_v68)) = _
  rw [keep_v50_9_7, keep_v50_7_6, at6_x, at9_agg, at9_b]

/-! ## Layer 3 -/

theorem at11_w : W11 m ρ c (Proc.devRef .tc main_v71) = val_main_v78 (F := Ideal) (A2 m c) := by
  show StableHlo.after hostOps4 (W10 m ρ c) (Proc.devRef .tc main_v71) = _
  after_results
  rw [keep_arg2_10_6, at6_a2]
  rfl

theorem at12_h : W12 m ρ c (Proc.devRef .tc main_v72) = val_main_v81 (F := Ideal) (A0 m c) (A1 m c) (A2 m c) (A3 m c) := by
  rw [lin3_eq]
  refine ((W12_arr m ρ c 2).trans (final4 (V11 m ρ) c)).trans ?_
  show prod (A := 100000) (K := 64) (B := 64) (W11 m ρ c (Proc.devRef .tc main_v69)) (W11 m ρ c (Proc.devRef .tc main_v71)) = _
  rw [keep_v69_11_10, at10_x, at11_w]

theorem at13_agg : W13 m ρ c (Proc.devRef .tc main_v85) = val_main_v94 (F := Ideal) (A0 m c) (A1 m c) (A2 m c) (A3 m c) := by
  rw [agg3_eq]
  show StableHlo.after hostOps5 (W12 m ρ c) (Proc.devRef .tc main_v85) = _
  after_results_simp
  rw [at12_h, keep_v3_12_8, keep_v3_8_4, keep_v3_4_3, at3_src, keep_v6_12_8, keep_v6_8_4, keep_v6_4_3, at3_dst,
    keep_v31_12_8, keep_v31_8_4, keep_v31_4_3, at3_nrm]
  rfl

theorem at13_b : W13 m ρ c (Proc.devRef .tc main_v87) = val_main_v80 (F := Ideal) (A3 m c) := by
  show StableHlo.after hostOps5 (W12 m ρ c) (Proc.devRef .tc main_v87) = _
  after_results
  rw [keep_arg3_12_8, keep_arg3_8_4, at4_a3]
  rfl

theorem at14_x : W14 m ρ c (Proc.devRef .tc main_v88) = val_main_v99 (F := Ideal) (A0 m c) (A1 m c) (A2 m c) (A3 m c) := by
  rw [upd3_eq]
  refine ((W14_arr m ρ c 3).trans (final5 (V13 m ρ) c)).trans ?_
  show update (A := 100000) (B := 64) 0x3F800000#32 (W13 m ρ c (Proc.devRef .tc main_v69)) (W13 m ρ c (Proc.devRef .tc main_v85)) (W13 m ρ c (Proc.devRef .tc main_v87)) = _
  rw [keep_v69_13_11, keep_v69_11_10, at10_x, at13_agg, at13_b]

/-! ## Layer 4 -/

theorem at15_w : W15 m ρ c (Proc.devRef .tc main_v90) = val_main_v101 (F := Ideal) (A2 m c) := by
  show StableHlo.after hostOps6 (W14 m ρ c) (Proc.devRef .tc main_v90) = _
  after_results
  rw [keep_arg2_14_10, keep_arg2_10_6, at6_a2]
  rfl

theorem at16_h : W16 m ρ c (Proc.devRef .tc main_v91) = val_main_v104 (F := Ideal) (A0 m c) (A1 m c) (A2 m c) (A3 m c) := by
  rw [lin4_eq]
  refine ((W16_arr m ρ c 2).trans (final6 (V15 m ρ) c)).trans ?_
  show prod (A := 100000) (K := 64) (B := 64) (W15 m ρ c (Proc.devRef .tc main_v88)) (W15 m ρ c (Proc.devRef .tc main_v90)) = _
  rw [keep_v88_15_14, at14_x, at15_w]

theorem at17_agg : W17 m ρ c (Proc.devRef .tc main_v104) = val_main_v117 (F := Ideal) (A0 m c) (A1 m c) (A2 m c) (A3 m c) := by
  rw [agg4_eq]
  show StableHlo.after hostOps7 (W16 m ρ c) (Proc.devRef .tc main_v104) = _
  after_results_simp
  rw [at16_h, keep_v3_16_12, keep_v3_12_8, keep_v3_8_4, keep_v3_4_3, at3_src, keep_v6_16_12, keep_v6_12_8, keep_v6_8_4,
    keep_v6_4_3, at3_dst, keep_v31_16_12, keep_v31_12_8, keep_v31_8_4, keep_v31_4_3, at3_nrm]
  rfl

theorem at17_b : W17 m ρ c (Proc.devRef .tc main_v106) = val_main_v103 (F := Ideal) (A3 m c) := by
  show StableHlo.after hostOps7 (W16 m ρ c) (Proc.devRef .tc main_v106) = _
  after_results
  rw [keep_arg3_16_12, keep_arg3_12_8, keep_arg3_8_4, at4_a3]
  rfl

theorem at18_x : W18 m ρ c (Proc.devRef .tc main_v107) = val_main_v122 (F := Ideal) (A0 m c) (A1 m c) (A2 m c) (A3 m c) := by
  rw [upd4_eq]
  refine ((W18_arr m ρ c 3).trans (final7 (V17 m ρ) c)).trans ?_
  show update (A := 100000) (B := 64) 0x3F800000#32 (W17 m ρ c (Proc.devRef .tc main_v88)) (W17 m ρ c (Proc.devRef .tc main_v104)) (W17 m ρ c (Proc.devRef .tc main_v106)) = _
  rw [keep_v88_17_15, keep_v88_15_14, at14_x, at17_agg, at17_b]

/-! ## The readout -/

/-- The result array at the last boundary is the reference's result stage of the kernel's own arguments. -/
theorem at19_out : W19 m ρ c (Proc.devRef .tc main_v108)
    = val_main_v126 (F := Ideal) (A0 m c) (A1 m c) (A2 m c) (A3 m c) (A4 m c) (A5 m c) := by
  rw [out_eq]
  refine ((W19_arr m ρ c 3).trans (final8 (V18 m ρ) c)).trans ?_
  show readout (A := 100000) (K := 64) (B := 3) (W18 m ρ c (Proc.devRef .tc main_v107)) (W18 m ρ c (Proc.devRef .tc main_arg4)) (W18 m ρ c (Proc.devRef .tc main_arg5)) = _
  rw [at18_x, at18_a4, at18_a5]

end Cert.KernelIdeal.Whole

end
-- ==== Proof.lean ====
/-
  A four-layer graph-convolution network with residual connections and a linear readout: the kernel's program
  against its reference, at the exact values.

  Both programs build the same graph from the edge list (self loops appended, symmetric normalization by the
  reciprocal square roots of the degrees) with the same host operations, and both pass messages by the same host
  gather, scaling and scatter-add. They differ in the dense pieces only. The kernel's program computes each layer's
  feature transform  x · W  in a launch tiled over blocks of ten thousand rows, the operands narrowed to half
  precision; the reference by one general product. Over the extended reals a change of float format is the identity
  and a product carries no rounding, so both are  ∑ k, x (p, k) · W (k, q). The kernel's program computes each layer's
  update  max (s · x + agg + b, 0)  in a second tiled launch, with s = 0 in the first layer and s = 1 afterwards; the
  reference computes  max (agg + b, 0)  and then  max (x + (agg + b), 0). Zero times any extended real is zero and
  addition of extended reals is associative, so the two agree with no finiteness assumption: the precondition is never
  opened. The readout  x · Wc + bc  is one more tiled launch against a general product plus a broadcast bias.

  The frames of the two kernel programs are the generated frame certificates. The reference's frame is its run with
  the result dropped. The ideal pass rewrote nothing, so the preservation claim is trivial. For the value claim the
  common result is the reference's result stage applied to the kernel's own argument arrays: the kernel's run ends
  with its result array at the last boundary's contents, which the stage-by-stage walk through its nine launches
  identifies with that stage; the reference's run ends at its composed term, which is the same stage of arguments that
  agree with the kernel's.
-/
import proofs.«117175_j71751723647605_1_alg».proof.Defs
import proofs.«117175_j71751723647605_1_alg».proof.Proof.Gen.Kernel
import proofs.«117175_j71751723647605_1_alg».proof.Proof.Gen.Kernel.Frame
import proofs.«117175_j71751723647605_1_alg».proof.Proof.Gen.KernelIdeal
import proofs.«117175_j71751723647605_1_alg».proof.Proof.Gen.KernelIdeal.Frame
import proofs.«117175_j71751723647605_1_alg».proof.Proof.Gen.ReferenceIdeal
import proofs.«117175_j71751723647605_1_alg».proof.Proof.Gen.Pre_finite_inputs
import proofs.«117175_j71751723647605_1_alg».proof.Proof.KernelRun
import proofs.«117175_j71751723647605_1_alg».proof.Proof.KernelStages
import proofs.«117175_j71751723647605_1_alg».proof.Proof.RefRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both runs end with the reference's result stage of the kernel's argument arrays in their result arrays. -/
theorem algebraic : Cert.algebraic_KernelIdeal_ReferenceIdeal := by
  intro m ρ m' ρ' _ hagree
  refine ⟨fun c => Cert.ReferenceIdeal.ReadP.val_main_v126 (F := Ideal) (Cert.KernelIdeal.Whole.A0 m c)
      (Cert.KernelIdeal.Whole.A1 m c) (Cert.KernelIdeal.Whole.A2 m c) (Cert.KernelIdeal.Whole.A3 m c)
      (Cert.KernelIdeal.Whole.A4 m c) (Cert.KernelIdeal.Whole.A5 m c), ?_, ?_⟩
  · exact (θ_run Cert.KernelIdeal.defs _ _).mono
      (fun r h c => ⟨(h c).1.trans (Cert.KernelIdeal.Whole.at19_out m ρ c), (h c).2⟩)
      (Cert.KernelIdeal.Whole.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5⟩ := hagree c
    rw [Cert.ReferenceIdeal.ReadP.val_main_v126_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
